-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x128 : Shape := ⟨2, ![102400, 128]⟩
abbrev S2x1638400 : Shape := ⟨2, ![2, 1638400]⟩
abbrev S102400 : Shape := ⟨1, ![102400]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S102400x128 : S_.BroadcastsInDim S102400x128 (![] : Fin 0 → Fin S102400x128.rank)
  reducesTo_S102400x128_S_d0_1 : S102400x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  main_v23

def fn {F : FTy → Type} [FloatOps F] (main_arg0 : FVec F S102400x128 .f32) (main_arg1 : IVec S2x1638400 32) (main_arg2 : IVec S102400 32) (main_arg3 : FVec F S128x128 .f32) (main_arg4 : FVec F S128 .f32) (main_arg5 : FVec F S2x128x128 .f32) (main_arg6 : FVec F S2x128 .f32) : IVec S_ 1 :=
  let main_v0 : FVec F S102400x128 .f32 := Host.absf main_arg0
  let main_cst : FVec F S_ .f32 := constant S_ .f32 0x7F800000#32
  let main_v1 : FVec F S102400x128 .f32 := broadcastInDim S102400x128 ![] bcast_S_S102400x128 main_cst
  let main_v2 : IVec S102400x128 1 := cmpf .olt main_v0 main_v1
  let main_c : IVec S_ 1 := constantI S_ 1 1#1
  let main_v3 : IVec S_ 1 := (fun x v => Host.reduce IntOp.andi x v reducesTo_S102400x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_v13 main_v16
-- ==== Kernel.lean ====
abbrev S102400x128 : Shape := ⟨2, ![102400, 128]⟩
abbrev S2x1638400 : Shape := ⟨2, ![2, 1638400]⟩
abbrev S102400 : Shape := ⟨1, ![102400]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x1638400 : Shape := ⟨2, ![1, 1638400]⟩
abbrev S1638400 : Shape := ⟨1, ![1638400]⟩
abbrev S1740800 : Shape := ⟨1, ![1740800]⟩
abbrev S_ : Shape := ⟨0, ![]⟩
abbrev S1740800x1 : Shape := ⟨2, ![1740800, 1]⟩
abbrev S1x128 : Shape := ⟨2, ![1, 128]⟩
abbrev S4096x128 : Shape := ⟨2, ![4096, 128]⟩
abbrev S1x128x128 : Shape := ⟨3, ![1, 128, 128]⟩
abbrev S1740800x128 : Shape := ⟨2, ![1740800, 128]⟩
abbrev S64x1600x128 : Shape := ⟨3, ![64, 1600, 128]⟩

abbrev nBuf : Space → Nat
  | .hbm => 100
  | .vmem => 28
  | .smem => 0
  | _ => 0

abbrev bufTy : (tb : Table) → Fin (tcTables nBuf tb) → BufTy
  | .hbm, ⟨0, _⟩ => ⟨S102400x128, .f32⟩
  | .hbm, ⟨1, _⟩ => ⟨S2x1638400, .i32⟩
  | .hbm, ⟨2, _⟩ => ⟨S102400, .i32⟩
  | .hbm, ⟨3, _⟩ => ⟨S128x128, .f32⟩
  | .hbm, ⟨4, _⟩ => ⟨S128, .f32⟩
  | .hbm, ⟨5, _⟩ => ⟨S2x128x128, .f32⟩
  | .hbm, ⟨6, _⟩ => ⟨S2x128, .f32⟩
  | .hbm, ⟨7, _⟩ => ⟨S1x1638400, .i32⟩
  | .hbm, ⟨8, _⟩ => ⟨S1638400, .i32⟩
  | .hbm, ⟨9, _⟩ => ⟨S1x1638400, .i32⟩
  | .hbm, ⟨10, _⟩ => ⟨S1638400, .i32⟩
  | .hbm, ⟨11, _⟩ => ⟨S102400, .i32⟩
  | .hbm, ⟨12, _⟩ => ⟨S1740800, .i32⟩
  | .hbm, ⟨13, _⟩ => ⟨S1740800, .i32⟩
  | .hbm, ⟨14, _⟩ => ⟨S_, .f32⟩
  | .hbm, ⟨15, _⟩ => ⟨S1740800, .f32⟩
  | .hbm, ⟨16, _⟩ => ⟨S_, .f32⟩
  | .hbm, ⟨17, _⟩ => ⟨S102400, .f32⟩
  | .hbm, ⟨18, _⟩ => ⟨S1740800x1, .i32⟩
  | .hbm, ⟨19, _⟩ => ⟨S102400, .f32⟩
  | .hbm, ⟨20, _⟩ => ⟨S_, .f32⟩
  | .hbm, ⟨21, _⟩ => ⟨S102400, .f32⟩
  | .hbm, ⟨22, _⟩ => ⟨S102400, .i1⟩
  | .hbm, ⟨23, _⟩ => ⟨S102400, .f32⟩
  | .hbm, ⟨24, _⟩ => ⟨S_, .f32⟩
  | .hbm, ⟨25, _⟩ => ⟨S_, .f32⟩
  | .hbm, ⟨26, _⟩ => ⟨S102400, .f32⟩
  | .hbm, ⟨27, _⟩ => ⟨S102400, .f32⟩
  | .hbm, ⟨28, _⟩ => ⟨S_, .i32⟩
  | .hbm, ⟨29, _⟩ => ⟨S1740800, .i32⟩
  | .hbm, ⟨30, _⟩ => ⟨S1740800, .i1⟩
  | .hbm, ⟨31, _⟩ => ⟨S_, .i32⟩
  | .hbm, ⟨32, _⟩ => ⟨S1740800, .i32⟩
  | .hbm, ⟨33, _⟩ => ⟨S1740800, .i32⟩
  | .hbm, ⟨34, _⟩ => ⟨S1740800, .i32⟩
  | .hbm, ⟨35, _⟩ => ⟨S1740800x1, .i32⟩
  | .hbm, ⟨36, _⟩ => ⟨S1740800, .f32⟩
  | .hbm, ⟨37, _⟩ => ⟨S_, .i32⟩
  | .hbm, ⟨38, _⟩ => ⟨S1740800, .i32⟩
  | .hbm, ⟨39, _⟩ => ⟨S1740800, .i1⟩
  | .hbm, ⟨40, _⟩ => ⟨S_, .i32⟩
  | .hbm, ⟨41, _⟩ => ⟨S1740800, .i32⟩
  | .hbm, ⟨42, _⟩ => ⟨S1740800, .i32⟩
  | .hbm, ⟨43, _⟩ => ⟨S1740800, .i32⟩
  | .hbm, ⟨44, _⟩ => ⟨S1740800x1, .i32⟩
  | .hbm, ⟨45, _⟩ => ⟨S1740800, .f32⟩
  | .hbm, ⟨46, _⟩ => ⟨S1740800, .f32⟩
  | .hbm, ⟨47, _⟩ => ⟨S1x128, .f32⟩
  | .hbm, ⟨48, _⟩ => ⟨S102400x128, .f32⟩
  | .hbm, ⟨49, _⟩ => ⟨S1x128x128, .f32⟩
  | .hbm, ⟨50, _⟩ => ⟨S128x128, .f32⟩
  | .hbm, ⟨51, _⟩ => ⟨S_, .f32⟩
  | .hbm, ⟨52, _⟩ => ⟨S1x128, .f32⟩
  | .hbm, ⟨53, _⟩ => ⟨S102400x128, .f32⟩
  | .hbm, ⟨54, _⟩ => ⟨S_, .i32⟩
  | .hbm, ⟨55, _⟩ => ⟨S1740800, .i32⟩
  | .hbm, ⟨56, _⟩ => ⟨S1740800, .i1⟩
  | .hbm, ⟨57, _⟩ => ⟨S_, .i32⟩
  | .hbm, ⟨58, _⟩ => ⟨S1740800, .i32⟩
  | .hbm, ⟨59, _⟩ => ⟨S1740800, .i32⟩
  | .hbm, ⟨60, _⟩ => ⟨S1740800, .i32⟩
  | .hbm, ⟨61, _⟩ => ⟨S1740800x1, .i32⟩
  | .hbm, ⟨62, _⟩ => ⟨S1740800x128, .f32⟩
  | .hbm, ⟨63, _⟩ => ⟨S1740800x1, .f32⟩
  | .hbm, ⟨64, _⟩ => ⟨S1740800x128, .f32⟩
  | .hbm, ⟨65, _⟩ => ⟨S1740800x128, .f32⟩
  | .hbm, ⟨66, _⟩ => ⟨S_, .f32⟩
  | .hbm, ⟨67, _⟩ => ⟨S102400x128, .f32⟩
  | .hbm, ⟨68, _⟩ => ⟨S1740800x1, .i32⟩
  | .hbm, ⟨69, _⟩ => ⟨S102400x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S102400x128, .f32⟩
  | .hbm, ⟨74, _⟩ => ⟨S1x128x128, .f32⟩
  | .hbm, ⟨75, _⟩ => ⟨S128x128, .f32⟩
  | .hbm, ⟨76, _⟩ => ⟨S_, .f32⟩
  | .hbm, ⟨77, _⟩ => ⟨S1x128, .f32⟩
  | .hbm, ⟨78, _⟩ => ⟨S102400x128, .f32⟩
  | .hbm, ⟨79, _⟩ => ⟨S_, .i32⟩
  | .hbm, ⟨80, _⟩ => ⟨S1740800, .i32⟩
  | .hbm, ⟨81, _⟩ => ⟨S1740800, .i1⟩
  | .hbm, ⟨82, _⟩ => ⟨S_, .i32⟩
  | .hbm, ⟨83, _⟩ => ⟨S1740800, .i32⟩
  | .hbm, ⟨84, _⟩ => ⟨S1740800, .i32⟩
  | .hbm, ⟨85, _⟩ => ⟨S1740800, .i32⟩
  | .hbm, ⟨86, _⟩ => ⟨S1740800x1, .i32⟩
  | .hbm, ⟨87, _⟩ => ⟨S1740800x128, .f32⟩
  | .hbm, ⟨88, _⟩ => ⟨S1740800x1, .f32⟩
  | .hbm, ⟨89, _⟩ => ⟨S1740800x128, .f32⟩
  | .hbm, ⟨90, _⟩ => ⟨S1740800x128, .f32⟩
  | .hbm, ⟨91, _⟩ => ⟨S_, .f32⟩
  | .hbm, ⟨92, _⟩ => ⟨S102400x128, .f32⟩
  | .hbm, ⟨93, _⟩ => ⟨S1740800x1, .i32⟩
  | .hbm, ⟨94, _⟩ => ⟨S102400x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S102400x128, .f32⟩
  | .hbm, ⟨99, _⟩ => ⟨S64x1600x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S128x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S128x128, .f32⟩
  | .local _ .vmem, ⟨20, _⟩ => ⟨S1x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | _, _ => ⟨S102400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  concatenates_S1638400_S102400_S1740800_d0 : Shape.Concatenates [S1638400, S102400] S1740800 0
  bcast_S_S1740800 : S_.BroadcastsInDim S1740800 (![] : Fin 0 → Fin S1740800.rank)
  bcast_S_S102400 : S_.BroadcastsInDim S102400 (![] : Fin 0 → Fin S102400.rank)
  bcast_S1740800_S1740800x1_0 : S1740800.BroadcastsInDim S1740800x1 (![0] : Fin 1 → Fin S1740800x1.rank)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S2x128x128_S1x128x128_0_0_0 : S2x128x128.Slices ![0, 0, 0] S1x128x128
  shapeCasts_S1x128x128_S128x128 : S1x128x128.ShapeCasts S128x128
  bcast_S_S1x128 : S_.BroadcastsInDim S1x128 (![] : Fin 0 → Fin S1x128.rank)
  shapeCasts_S4096x128_S4096x128 : S4096x128.ShapeCasts S4096x128
  shapeCasts_S128x128_S128x128 : S128x128.ShapeCasts S128x128
  bcast_S1740800x1_S1740800x128_0_1 : S1740800x1.BroadcastsInDim S1740800x128 (![0, 1] : Fin 2 → Fin S1740800x128.rank)
  bcast_S_S102400x128 : S_.BroadcastsInDim S102400x128 (![] : Fin 0 → Fin S102400x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  shapeCasts_S102400x128_S64x1600x128 : S102400x128.ShapeCasts S64x1600x128
  scatter_S102400_S1740800x1_S1740800_n_0_0_1_wf : ScatterDims.WF S102400 S1740800x1 S1740800 [] [0] [0] 1
  gather_S102400_S1740800x1_S1740800_n_0_n_n_0_1_1_wf : GatherDims.WF S102400 S1740800x1 S1740800 [] [0] [] [0] [] 1 ![1]
  dot_S4096x128_S128x128_S4096x128_1_0_0_1_n_n_wf : DotDims.WF S4096x128 S128x128 S4096x128 [1] [0] [0] [1] [] []
  gather_S102400x128_S1740800x1_S1740800x128_1_0_n_n_0_1_1128_wf : GatherDims.WF S102400x128 S1740800x1 S1740800x128 [1] [0] [] [0] [] 1 ![1, 128]
  scatter_S102400x128_S1740800x1_S1740800x128_1_0_0_1_wf : ScatterDims.WF S102400x128 S1740800x1 S1740800x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S102400x128.size a
  hwx0_3 : ∀ i : grid0.Coords, EltTy.bits .f32 = 32 ∨ (Rect.block (s := S102400x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .f32 = 32 ∨ (Rect.block (s := S102400x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S102400x128.size a
  hwx1_3 : ∀ i : grid1.Coords, EltTy.bits .f32 = 32 ∨ (Rect.block (s := S102400x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S102400x128.size a
  hwx2_0 : ∀ i : grid2.Coords, EltTy.bits .f32 = 32 ∨ (Rect.block (s := S102400x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S102400x128.size a
  hwx2_2 : ∀ i : grid2.Coords, EltTy.bits .f32 = 32 ∨ (Rect.block (s := S102400x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S102400x128.size a
  hwx3_0 : ∀ i : grid3.Coords, EltTy.bits .f32 = 32 ∨ (Rect.block (s := S102400x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S102400x128.size a
  hwx3_3 : ∀ i : grid3.Coords, EltTy.bits .f32 = 32 ∨ (Rect.block (s := S102400x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S102400x128.size a
  hwx4_0 : ∀ i : grid4.Coords, EltTy.bits .f32 = 32 ∨ (Rect.block (s := S102400x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S102400x128.size a
  hwx4_2 : ∀ i : grid4.Coords, EltTy.bits .f32 = 32 ∨ (Rect.block (s := S102400x128) S4096x128.size (cc4_transform_2 i) (hinb4_2 i)).WholeWords (EltTy.packing .f32)

variable [Facts₀]

def scatter_S102400_S1740800x1_S1740800_n_0_0_1 : ScatterDims S102400 S1740800x1 S1740800 where
  updateWindowDims := []
  insertedWindowDims := [0]
  scatterDimsToOperandDims := [0]
  indexVectorDim := 1
  wf := scatter_S102400_S1740800x1_S1740800_n_0_0_1_wf
def gather_S102400_S1740800x1_S1740800_n_0_n_n_0_1_1 : GatherDims S102400 S1740800x1 S1740800 where
  offsetDims := []
  collapsedSliceDims := [0]
  operandBatchingDims := []
  startIndicesBatchingDims := []
  startIndexMap := [0]
  indexVectorDim := 1
  sliceSizes := ![1]
  wf := gather_S102400_S1740800x1_S1740800_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S102400x128_S1740800x1_S1740800x128_1_0_n_n_0_1_1128 : GatherDims S102400x128 S1740800x1 S1740800x128 where
  offsetDims := [1]
  collapsedSliceDims := [0]
  operandBatchingDims := []
  startIndicesBatchingDims := []
  startIndexMap := [0]
  indexVectorDim := 1
  sliceSizes := ![1, 128]
  wf := gather_S102400x128_S1740800x1_S1740800x128_1_0_n_n_0_1_1128_wf
def scatter_S102400x128_S1740800x1_S1740800x128_1_0_0_1 : ScatterDims S102400x128 S1740800x1 S1740800x128 where
  updateWindowDims := [1]
  insertedWindowDims := [0]
  scatterDimsToOperandDims := [0]
  indexVectorDim := 1
  wf := scatter_S102400x128_S1740800x1_S1740800x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S4096x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S102400x128 : Shape := ⟨2, ![102400, 128]⟩
abbrev S2x1638400 : Shape := ⟨2, ![2, 1638400]⟩
abbrev S102400 : Shape := ⟨1, ![102400]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x1638400 : Shape := ⟨2, ![1, 1638400]⟩
abbrev S1638400 : Shape := ⟨1, ![1638400]⟩
abbrev S1x128 : Shape := ⟨2, ![1, 128]⟩
abbrev S1x128x128 : Shape := ⟨3, ![1, 128, 128]⟩
abbrev S1740800 : Shape := ⟨1, ![1740800]⟩
abbrev S_ : Shape := ⟨0, ![]⟩
abbrev S1740800x1 : Shape := ⟨2, ![1740800, 1]⟩
abbrev S1740800x128 : Shape := ⟨2, ![1740800, 128]⟩
abbrev S64x1600x128 : Shape := ⟨3, ![64, 1600, 128]⟩

abbrev nBuf : Space → Nat
  | .hbm => 142
  | .vmem => 0
  | .smem => 0
  | _ => 0

abbrev hbmTy0_0 (i : Nat) : BufTy := match i % 128 with
  | 0 => ⟨S102400x128, .f32⟩
  | 1 => ⟨S2x1638400, .i32⟩
  | 2 => ⟨S102400, .i32⟩
  | 3 => ⟨S128x128, .f32⟩
  | 4 => ⟨S128, .f32⟩
  | 5 => ⟨S2x128x128, .f32⟩
  | 6 => ⟨S2x128, .f32⟩
  | 7 => ⟨S1x1638400, .i32⟩
  | 8 => ⟨S1638400, .i32⟩
  | 9 => ⟨S1x1638400, .i32⟩
  | 10 => ⟨S1638400, .i32⟩
  | 11 => ⟨S102400x128, .f32⟩
  | 12 => ⟨S1x128, .f32⟩
  | 13 => ⟨S102400x128, .f32⟩
  | 14 => ⟨S102400x128, .f32⟩
  | 15 => ⟨S1x128x128, .f32⟩
  | 16 => ⟨S128x128, .f32⟩
  | 17 => ⟨S1x128, .f32⟩
  | 18 => ⟨S128, .f32⟩
  | 19 => ⟨S102400x128, .f32⟩
  | 20 => ⟨S102400, .i32⟩
  | 21 => ⟨S1740800, .i32⟩
  | 22 => ⟨S1740800, .i32⟩
  | 23 => ⟨S_, .f32⟩
  | 24 => ⟨S1740800, .f32⟩
  | 25 => ⟨S_, .f32⟩
  | 26 => ⟨S102400, .f32⟩
  | 27 => ⟨S1740800x1, .i32⟩
  | 28 => ⟨S102400, .f32⟩
  | 29 => ⟨S_, .f32⟩
  | 30 => ⟨S102400, .f32⟩
  | 31 => ⟨S102400, .i1⟩
  | 32 => ⟨S102400, .f32⟩
  | 33 => ⟨S_, .f32⟩
  | 34 => ⟨S_, .f32⟩
  | 35 => ⟨S102400, .f32⟩
  | 36 => ⟨S102400, .f32⟩
  | 37 => ⟨S_, .i32⟩
  | 38 => ⟨S1740800, .i32⟩
  | 39 => ⟨S1740800, .i1⟩
  | 40 => ⟨S_, .i32⟩
  | 41 => ⟨S1740800, .i32⟩
  | 42 => ⟨S1740800, .i32⟩
  | 43 => ⟨S1740800, .i32⟩
  | 44 => ⟨S1740800x1, .i32⟩
  | 45 => ⟨S1740800, .f32⟩
  | 46 => ⟨S_, .i32⟩
  | 47 => ⟨S1740800, .i32⟩
  | 48 => ⟨S1740800, .i1⟩
  | 49 => ⟨S_, .i32⟩
  | 50 => ⟨S1740800, .i32⟩
  | 51 => ⟨S1740800, .i32⟩
  | 52 => ⟨S1740800, .i32⟩
  | 53 => ⟨S1740800x1, .i32⟩
  | 54 => ⟨S1740800, .f32⟩
  | 55 => ⟨S1740800, .f32⟩
  | 56 => ⟨S_, .i32⟩
  | 57 => ⟨S1740800, .i32⟩
  | 58 => ⟨S1740800, .i1⟩
  | 59 => ⟨S_, .i32⟩
  | 60 => ⟨S1740800, .i32⟩
  | 61 => ⟨S1740800, .i32⟩
  | 62 => ⟨S1740800, .i32⟩
  | 63 => ⟨S1740800x1, .i32⟩
  | 64 => ⟨S1740800x128, .f32⟩
  | 65 => ⟨S1740800x1, .f32⟩
  | 66 => ⟨S1740800x128, .f32⟩
  | 67 => ⟨S1740800x128, .f32⟩
  | 68 => ⟨S_, .f32⟩
  | 69 => ⟨S102400x128, .f32⟩
  | 70 => ⟨S1740800x1, .i32⟩
  | 71 => ⟨S102400x128, .f32⟩
  | 72 => ⟨S1x128, .f32⟩
  | 73 => ⟨S102400x128, .f32⟩
  | 74 => ⟨S102400x128, .f32⟩
  | 75 => ⟨S_, .f32⟩
  | 76 => ⟨S102400x128, .f32⟩
  | 77 => ⟨S102400x128, .f32⟩
  | 78 => ⟨S1x128x128, .f32⟩
  | 79 => ⟨S128x128, .f32⟩
  | 80 => ⟨S1x128, .f32⟩
  | 81 => ⟨S128, .f32⟩
  | 82 => ⟨S102400x128, .f32⟩
  | 83 => ⟨S102400, .i32⟩
  | 84 => ⟨S1740800, .i32⟩
  | 85 => ⟨S1740800, .i32⟩
  | 86 => ⟨S_, .f32⟩
  | 87 => ⟨S1740800, .f32⟩
  | 88 => ⟨S_, .f32⟩
  | 89 => ⟨S102400, .f32⟩
  | 90 => ⟨S1740800x1, .i32⟩
  | 91 => ⟨S102400, .f32⟩
  | 92 => ⟨S_, .f32⟩
  | 93 => ⟨S102400, .f32⟩
  | 94 => ⟨S102400, .i1⟩
  | 95 => ⟨S102400, .f32⟩
  | 96 => ⟨S_, .f32⟩
  | 97 => ⟨S_, .f32⟩
  | 98 => ⟨S102400, .f32⟩
  | 99 => ⟨S102400, .f32⟩
  | 100 => ⟨S_, .i32⟩
  | 101 => ⟨S1740800, .i32⟩
  | 102 => ⟨S1740800, .i1⟩
  | 103 => ⟨S_, .i32⟩
  | 104 => ⟨S1740800, .i32⟩
  | 105 => ⟨S1740800, .i32⟩
  | 106 => ⟨S1740800, .i32⟩
  | 107 => ⟨S1740800x1, .i32⟩
  | 108 => ⟨S1740800, .f32⟩
  | 109 => ⟨S_, .i32⟩
  | 110 => ⟨S1740800, .i32⟩
  | 111 => ⟨S1740800, .i1⟩
  | 112 => ⟨S_, .i32⟩
  | 113 => ⟨S1740800, .i32⟩
  | 114 => ⟨S1740800, .i32⟩
  | 115 => ⟨S1740800, .i32⟩
  | 116 => ⟨S1740800x1, .i32⟩
  | 117 => ⟨S1740800, .f32⟩
  | 118 => ⟨S1740800, .f32⟩
  | 119 => ⟨S_, .i32⟩
  | 120 => ⟨S1740800, .i32⟩
  | 121 => ⟨S1740800, .i1⟩
  | 122 => ⟨S_, .i32⟩
  | 123 => ⟨S1740800, .i32⟩
  | 124 => ⟨S1740800, .i32⟩
  | 125 => ⟨S1740800, .i32⟩
  | 126 => ⟨S1740800x1, .i32⟩
  | 127 => ⟨S1740800x128, .f32⟩
  | _ => ⟨S102400x128, .f32⟩

abbrev hbmTy0_1 (i : Nat) : BufTy := match i % 128 with
  | 0 => ⟨S1740800x1, .f32⟩
  | 1 => ⟨S1740800x128, .f32⟩
  | 2 => ⟨S1740800x128, .f32⟩
  | 3 => ⟨S_, .f32⟩
  | 4 => ⟨S102400x128, .f32⟩
  | 5 => ⟨S1740800x1, .i32⟩
  | 6 => ⟨S102400x128, .f32⟩
  | 7 => ⟨S1x128, .f32⟩
  | 8 => ⟨S102400x128, .f32⟩
  | 9 => ⟨S102400x128, .f32⟩
  | 10 => ⟨S_, .f32⟩
  | 11 => ⟨S102400x128, .f32⟩
  | 12 => ⟨S102400x128, .f32⟩
  | 13 => ⟨S64x1600x128, .f32⟩
  | _ => ⟨S102400x128, .f32⟩

abbrev hbmTy (i : Nat) : BufTy := match i / 128 with
  | 0 => hbmTy0_0 i
  | 1 => hbmTy0_1 i
  | _ => ⟨S102400x128, .f32⟩

abbrev bufTy : (tb : Table) → Fin (tcTables nBuf tb) → BufTy
  | .hbm, ⟨i, _⟩ => hbmTy i
  | _, _ => ⟨S102400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_cst : Ref sig .tc := ⟨.hbm, 75, rfl⟩
abbrev main_call1_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call3_cst : Ref sig .tc := ⟨.hbm, 138, rfl⟩
abbrev main_call3_v0 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  slices_S2x1638400_S1x1638400_0_0 : S2x1638400.Slices ![0, 0] S1x1638400
  shapeCasts_S1x1638400_S1638400 : S1x1638400.ShapeCasts S1638400
  slices_S2x1638400_S1x1638400_1_0 : S2x1638400.Slices ![1, 0] S1x1638400
  bcast_S128_S1x128_1 : S128.BroadcastsInDim S1x128 (![1] : Fin 1 → Fin S1x128.rank)
  bcast_S1x128_S102400x128_0_1 : S1x128.BroadcastsInDim S102400x128 (![0, 1] : Fin 2 → Fin S102400x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  concatenates_S1638400_S102400_S1740800_d0 : Shape.Concatenates [S1638400, S102400] S1740800 0
  bcast_S_S1740800 : S_.BroadcastsInDim S1740800 (![] : Fin 0 → Fin S1740800.rank)
  bcast_S_S102400 : S_.BroadcastsInDim S102400 (![] : Fin 0 → Fin S102400.rank)
  bcast_S1740800_S1740800x1_0 : S1740800.BroadcastsInDim S1740800x1 (![0] : Fin 1 → Fin S1740800x1.rank)
  bcast_S1740800x1_S1740800x128_0_1 : S1740800x1.BroadcastsInDim S1740800x128 (![0, 1] : Fin 2 → Fin S1740800x128.rank)
  bcast_S_S102400x128 : S_.BroadcastsInDim S102400x128 (![] : Fin 0 → Fin S102400x128.rank)
  slices_S2x128x128_S1x128x128_1_0_0 : S2x128x128.Slices ![1, 0, 0] S1x128x128
  slices_S2x128_S1x128_1_0 : S2x128.Slices ![1, 0] S1x128
  shapeCasts_S102400x128_S64x1600x128 : S102400x128.ShapeCasts S64x1600x128
  dot_S102400x128_S128x128_S102400x128_1_0_0_1_n_n_wf : DotDims.WF S102400x128 S128x128 S102400x128 [1] [0] [0] [1] [] []
  scatter_S102400_S1740800x1_S1740800_n_0_0_1_wf : ScatterDims.WF S102400 S1740800x1 S1740800 [] [0] [0] 1
  gather_S102400_S1740800x1_S1740800_n_0_n_n_0_1_1_wf : GatherDims.WF S102400 S1740800x1 S1740800 [] [0] [] [0] [] 1 ![1]
  gather_S102400x128_S1740800x1_S1740800x128_1_0_n_n_0_1_1128_wf : GatherDims.WF S102400x128 S1740800x1 S1740800x128 [1] [0] [] [0] [] 1 ![1, 128]
  scatter_S102400x128_S1740800x1_S1740800x128_1_0_0_1_wf : ScatterDims.WF S102400x128 S1740800x1 S1740800x128 [1] [0] [0] 1

variable [Facts₀]

def dot_S102400x128_S128x128_S102400x128_1_0_0_1_n_n : DotDims S102400x128 S128x128 S102400x128 where
  lhsContracting := [1]
  rhsContracting := [0]
  lhsNonContracting := [0]
  rhsNonContracting := [1]
  lhsBatch := []
  rhsBatch := []
  wf := dot_S102400x128_S128x128_S102400x128_1_0_0_1_n_n_wf
def scatter_S102400_S1740800x1_S1740800_n_0_0_1 : ScatterDims S102400 S1740800x1 S1740800 where
  updateWindowDims := []
  insertedWindowDims := [0]
  scatterDimsToOperandDims := [0]
  indexVectorDim := 1
  wf := scatter_S102400_S1740800x1_S1740800_n_0_0_1_wf
def gather_S102400_S1740800x1_S1740800_n_0_n_n_0_1_1 : GatherDims S102400 S1740800x1 S1740800 where
  offsetDims := []
  collapsedSliceDims := [0]
  operandBatchingDims := []
  startIndicesBatchingDims := []
  startIndexMap := [0]
  indexVectorDim := 1
  sliceSizes := ![1]
  wf := gather_S102400_S1740800x1_S1740800_n_0_n_n_0_1_1_wf
def gather_S102400x128_S1740800x1_S1740800x128_1_0_n_n_0_1_1128 : GatherDims S102400x128 S1740800x1 S1740800x128 where
  offsetDims := [1]
  collapsedSliceDims := [0]
  operandBatchingDims := []
  startIndicesBatchingDims := []
  startIndexMap := [0]
  indexVectorDim := 1
  sliceSizes := ![1, 128]
  wf := gather_S102400x128_S1740800x1_S1740800x128_1_0_n_n_0_1_1128_wf
def scatter_S102400x128_S1740800x1_S1740800x128_1_0_0_1 : ScatterDims S102400x128 S1740800x1 S1740800x128 where
  updateWindowDims := [1]
  insertedWindowDims := [0]
  scatterDimsToOperandDims := [0]
  indexVectorDim := 1
  wf := scatter_S102400x128_S1740800x1_S1740800x128_1_0_0_1_wf

class Facts : Prop extends Facts₀ where

variable [Facts]
-- ==== Proof.KernelRun.lean ====
/-
  The idealized kernel program's run with its result buffer named.

  The program is five TensorCore regions among stretches of host operations. The generated frame follows the
  contents of every unscoped buffer through that sequence: `W0` is the launch memory, a stretch of host operations
  takes `Wk` to the fold of its operations over `Wk`, and a region takes `Wk` to `Wk` with the region's arrays
  replaced by what its write-backs leave. The last of these, `W13`, is what every unscoped buffer holds in every final
  state. The frame claim reads the seven argument buffers off `W13`; here the result buffer is read off it as well, so
  that the value of the result becomes a statement about the fold `W13` alone.
-/
import proofs.«153210_j18992345383253_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and in
    every final state the result buffer holds what the fold `W13` holds there, the arguments what they held at launch:
    the thirteen segments launched as in the frame claim, the last thread state read against the final state. -/
theorem run_out : θ_run defs (onTc (τ := τ) (main (F := F))) ⟨m, fun _ => 0, ρ⟩ (fun r => ∀ c : Dev nD,
      r.2.mem ((c.tc : Thread nD τ).loc main_v74) = W13 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v74 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Hand

end
-- ==== Proof.GraphOps.lean ====
/-
  The sparse half of a graph-convolution layer, as the host program computes it, as functions of arrays.

  The graph has 102400 nodes and 1638400 edges, given as a `[2, 1638400]` array of node numbers: row 0 the sources, row 1
  the targets. A self loop is appended for every node (`srcIdx`, `dstIdx`: the row followed by 0, 1, …, 102399). The
  degree of a node counts the (edge or loop) entries that target it (`degree`: ones scatter-added at the targets),
  `invSqrtDeg` is its inverse square root where the degree is positive and zero elsewhere, and an entry's weight is the
  product of that quantity at its two ends (`edgeNorm`). One aggregation (`aggregate`) gathers the rows of a
  `[102400, 128]` array at the sources, scales each by its entry's weight and scatter-adds them at the targets. A node
  number is read with negative numbers wrapped by the node count before a gather (`wrapIdx`) and as it is before a
  scatter (`colIdx`). Every operation here is the host program's own; nothing is computed.
-/
import proofs.«153210_j18992345383253_1_alg».proof.Proof.Gen.KernelIdeal
import Idealize.ShloMosaic.PureOps.Ideal

noncomputable section

namespace Cert.KernelIdeal.Hand

open Cert.KernelIdeal Cert.KernelIdeal.Gen Idealize.ShloMosaic

/-- An array of 32-bit integers of shape `S`. -/
abbrev I32 (S : Shape) : Type := IVec S 32
/-- An array of extended reals of shape `S`. -/
abbrev F32 (S : Shape) : Type := FVec Ideal S .f32

/-- Row 0 of the edge array: the sources. -/
def edgeRow0 (e : I32 S2x1638400) : I32 S1638400 :=
  shapeCast S1638400 (extractStridedSlice S1x1638400 ![0, 0] e slices_S2x1638400_S1x1638400_0_0) shapeCasts_S1x1638400_S1638400
/-- Row 1 of the edge array: the targets. -/
def edgeRow1 (e : I32 S2x1638400) : I32 S1638400 :=
  shapeCast S1638400 (extractStridedSlice S1x1638400 ![1, 0] e slices_S2x1638400_S1x1638400_1_0) shapeCasts_S1x1638400_S1638400
/-- A row of node numbers followed by every node's own number. -/
def withLoops (v : I32 S1638400) : I32 S1740800 :=
  concatenate S1740800 0 [⟨S1638400, v⟩, ⟨S102400, (iotaInDim S102400 32 0 : I32 S102400)⟩] concatenates_S1638400_S102400_S1740800_d0
/-- The sources, self loops appended. -/
def srcIdx (e : I32 S2x1638400) : I32 S1740800 := withLoops (edgeRow0 e)
/-- The targets, self loops appended. -/
def dstIdx (e : I32 S2x1638400) : I32 S1740800 := withLoops (edgeRow1 e)

/-- Node numbers as a column of start indices, a negative number wrapped by the node count. -/
def wrapIdx (v : I32 S1740800) : I32 S1740800x1 :=
  broadcastInDim S1740800x1 ![0] bcast_S1740800_S1740800x1_0
    (select (cmpi .slt v (broadcastInDim S1740800 ![] bcast_S_S1740800 (constantI S_ 32 0#32)))
      (addi v (broadcastInDim S1740800 ![] bcast_S_S1740800 (constantI S_ 32 102400#32))) v)
/-- Node numbers as a column of scatter indices. -/
def colIdx (v : I32 S1740800) : I32 S1740800x1 := broadcastInDim S1740800x1 ![0] bcast_S1740800_S1740800x1_0 v

/-- How many entries target each node. -/
def degree (d : I32 S1740800) : F32 S102400 :=
  Host.scatterAdd (F := Ideal) scatter_S102400_S1740800x1_S1740800_n_0_0_1
    (broadcastInDim S102400 ![] bcast_S_S102400 (constant (F := Ideal) S_ .f32 0x00000000#32)) (colIdx d)
    (broadcastInDim S1740800 ![] bcast_S_S1740800 (constant (F := Ideal) S_ .f32 0x3F800000#32))
/-- `r` where `p` holds, the scalar `z` elsewhere. -/
def keepWhere (p : IVec S102400 1) (r : F32 S102400) (z : F32 S_) : F32 S102400 :=
  select p r (broadcastInDim S102400 ![] bcast_S_S102400 (id z))
/-- The inverse square root of the degree where it is positive, zero elsewhere. -/
def invSqrtDeg (d : I32 S1740800) : F32 S102400 :=
  keepWhere (cmpf (F := Ideal) .ogt (degree d) (broadcastInDim S102400 ![] bcast_S_S102400 (constant (F := Ideal) S_ .f32 0x00000000#32)))
    (Host.rsqrt (F := Ideal) (degree d)) (constant (F := Ideal) S_ .f32 0x00000000#32)
/-- A per-node quantity `g` multiplied at an entry's two ends. -/
def endsProduct (g : F32 S102400) (s d : I32 S1740800) : F32 S1740800 :=
  mulf (Host.gather gather_S102400_S1740800x1_S1740800_n_0_n_n_0_1_1 g (wrapIdx s))
    (Host.gather gather_S102400_S1740800x1_S1740800_n_0_n_n_0_1_1 g (wrapIdx d))
/-- An entry's weight: the product of `invSqrtDeg` at its source and at its target. -/
def edgeNorm (s d : I32 S1740800) : F32 S1740800 := endsProduct (invSqrtDeg d) s d

/-- Rows gathered at the sources, scaled by the entries' weights, scatter-added at the targets. -/
def aggregate (t : F32 S102400x128) (s d : I32 S1740800) (n : F32 S1740800) : F32 S102400x128 :=
  Host.scatterAdd (F := Ideal) scatter_S102400x128_S1740800x1_S1740800x128_1_0_0_1
    (broadcastInDim S102400x128 ![] bcast_S_S102400x128 (constant (F := Ideal) S_ .f32 0x00000000#32)) (colIdx d)
    (mulf (Host.gather gather_S102400x128_S1740800x1_S1740800x128_1_0_n_n_0_1_1128 t (wrapIdx s))
      (broadcastInDim S1740800x128 ![0, 1] bcast_S1740800x1_S1740800x128_0_1
        (broadcastInDim S1740800x1 ![0] bcast_S1740800_S1740800x1_0 n)))

/-- Layer `l`'s weight matrix out of the stacked weights. -/
def weight0 (w : F32 S2x128x128) : F32 S128x128 :=
  shapeCast S128x128 (extractStridedSlice S1x128x128 ![0, 0, 0] w slices_S2x128x128_S1x128x128_0_0_0) shapeCasts_S1x128x128_S128x128
def weight1 (w : F32 S2x128x128) : F32 S128x128 :=
  shapeCast S128x128 (extractStridedSlice S1x128x128 ![1, 0, 0] w slices_S2x128x128_S1x128x128_1_0_0) shapeCasts_S1x128x128_S128x128
/-- Layer `l`'s bias vector out of the stacked biases. -/
def bias0 (b : F32 S2x128) : F32 S128 := shapeCast S128 (extractStridedSlice S1x128 ![0, 0] b slices_S2x128_S1x128_0_0) shapeCasts_S1x128_S128
def bias1 (b : F32 S2x128) : F32 S128 := shapeCast S128 (extractStridedSlice S1x128 ![1, 0] b slices_S2x128_S1x128_1_0) shapeCasts_S1x128_S128
/-- A bias vector as a `[1, 128]` row. -/
def asRow (b : F32 S128) : F32 S1x128 := shapeCast S1x128 b shapeCasts_S128_S1x128
/-- The zero `[1, 128]` row. -/
def zeroRow : F32 S1x128 := broadcastInDim S1x128 ![] bcast_S_S1x128 (constant (F := Ideal) S_ .f32 0x00000000#32)

end Cert.KernelIdeal.Hand

end
-- ==== Proof.Stage0.lean ====
/-
  The buffers the first region and the later host stretches read, at the first region's entry.

  Before its first region the program runs forty-two host operations on the launch memory, in three stretches: it cuts
  the edge array into its two rows, appends the self loops and counts the degrees; it keeps the inverse square root of the
  degree where the degree is positive; it forms every entry's weight and reshapes the input bias to a row. What a buffer
  holds after a stretch is the stretch's composed term of what the buffers held before it — a fact about the stretch
  alone, stated over any contents `V` — and the three stretches are then chained from the launch memory, in the
  vocabulary of the graph operations: the sources and targets with self loops, the entries' weights, the bias row. The
  argument arrays themselves are never written.
-/
import proofs.«153210_j18992345383253_1_alg».proof.Proof.Gen.KernelIdeal.Frame
import proofs.«153210_j18992345383253_1_alg».proof.Proof.GraphOps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The second and third stretches, over any contents -/

section Stretches
variable (V : Valuation τ sig (Elt Ideal))

/-- The second stretch selects. -/
theorem stretch1_v14 : StableHlo.after hostOps0_1 V (Proc.devRef .tc main_v14)
    = keepWhere (V (Proc.devRef .tc main_v12)) (V (Proc.devRef .tc main_v13)) (V (Proc.devRef .tc main_cst_2)) := by
  dsimp only [hostOps0_1]
  after_results
  rfl
theorem stretch1_main_v5 : StableHlo.after hostOps0_1 V (Proc.devRef .tc main_v5) = V (Proc.devRef .tc main_v5) := by
  dsimp only [hostOps0_1]
  after_results
theorem stretch1_main_v6 : StableHlo.after hostOps0_1 V (Proc.devRef .tc main_v6) = V (Proc.devRef .tc main_v6) := by
  dsimp only [hostOps0_1]
  after_results
theorem stretch1_main_arg0 : StableHlo.after hostOps0_1 V (Proc.devRef .tc main_arg0) = V (Proc.devRef .tc main_arg0) := by
  dsimp only [hostOps0_1]
  after_results
theorem stretch1_main_arg3 : StableHlo.after hostOps0_1 V (Proc.devRef .tc main_arg3) = V (Proc.devRef .tc main_arg3) := by
  dsimp only [hostOps0_1]
  after_results
theorem stretch1_main_arg4 : StableHlo.after hostOps0_1 V (Proc.devRef .tc main_arg4) = V (Proc.devRef .tc main_arg4) := by
  dsimp only [hostOps0_1]
  after_results
theorem stretch1_main_arg5 : StableHlo.after hostOps0_1 V (Proc.devRef .tc main_arg5) = V (Proc.devRef .tc main_arg5) := by
  dsimp only [hostOps0_1]
  after_results
theorem stretch1_main_arg6 : StableHlo.after hostOps0_1 V (Proc.devRef .tc main_arg6) = V (Proc.devRef .tc main_arg6) := by
  dsimp only [hostOps0_1]
  after_results

/-- The third stretch multiplies at the two ends of every entry, and reshapes the input bias. -/
theorem stretch2_v29 : StableHlo.after hostOps0_2 V (Proc.devRef .tc main_v29)
    = endsProduct (V (Proc.devRef .tc main_v14)) (V (Proc.devRef .tc main_v5)) (V (Proc.devRef .tc main_v6)) := by
  dsimp only [hostOps0_2]
  after_results_simp
  rfl
theorem stretch2_v30 : StableHlo.after hostOps0_2 V (Proc.devRef .tc main_v30) = asRow (V (Proc.devRef .tc main_arg4)) := by
  dsimp only [hostOps0_2]
  after_results_simp
  rfl
theorem stretch2_main_v5 : StableHlo.after hostOps0_2 V (Proc.devRef .tc main_v5) = V (Proc.devRef .tc main_v5) := by
  dsimp only [hostOps0_2]
  after_results_simp
theorem stretch2_main_v6 : StableHlo.after hostOps0_2 V (Proc.devRef .tc main_v6) = V (Proc.devRef .tc main_v6) := by
  dsimp only [hostOps0_2]
  after_results_simp
theorem stretch2_main_arg0 : StableHlo.after hostOps0_2 V (Proc.devRef .tc main_arg0) = V (Proc.devRef .tc main_arg0) := by
  dsimp only [hostOps0_2]
  after_results_simp
theorem stretch2_main_arg3 : StableHlo.after hostOps0_2 V (Proc.devRef .tc main_arg3) = V (Proc.devRef .tc main_arg3) := by
  dsimp only [hostOps0_2]
  after_results_simp
theorem stretch2_main_arg5 : StableHlo.after hostOps0_2 V (Proc.devRef .tc main_arg5) = V (Proc.devRef .tc main_arg5) := by
  dsimp only [hostOps0_2]
  after_results_simp
theorem stretch2_main_arg6 : StableHlo.after hostOps0_2 V (Proc.devRef .tc main_arg6) = V (Proc.devRef .tc main_arg6) := by
  dsimp only [hostOps0_2]
  after_results_simp

end Stretches

/-! ## After the first stretch: the node numbers with self loops, the degrees compared and inverted -/

theorem W1_main_v5 (c : Dev nD) : W1 m ρ c (Proc.devRef .tc main_v5) = srcIdx (m ((c : Thread nD τ).loc main_arg1)) := by
  dsimp only [W1, hostOps0]
  after_results_simp <;> rfl
theorem W1_main_v6 (c : Dev nD) : W1 m ρ c (Proc.devRef .tc main_v6) = dstIdx (m ((c : Thread nD τ).loc main_arg1)) := by
  dsimp only [W1, hostOps0]
  after_results_simp <;> rfl
/-- Where the degree is positive. -/
theorem W1_main_v12 (c : Dev nD) : W1 m ρ c (Proc.devRef .tc main_v12)
    = cmpf (F := Ideal) .ogt (degree (dstIdx (m ((c : Thread nD τ).loc main_arg1))))
        (broadcastInDim S102400 ![] bcast_S_S102400 (constant (F := Ideal) S_ .f32 0x00000000#32)) := by
  dsimp only [W1, hostOps0]
  after_results_simp <;> rfl
/-- The inverse square root of the degree. -/
theorem W1_main_v13 (c : Dev nD) : W1 m ρ c (Proc.devRef .tc main_v13) = Host.rsqrt (F := Ideal) (degree (dstIdx (m ((c : Thread nD τ).loc main_arg1)))) := by
  dsimp only [W1, hostOps0]
  after_results_simp <;> rfl
theorem W1_main_cst_2 (c : Dev nD) : W1 m ρ c (Proc.devRef .tc main_cst_2) = constant (F := Ideal) S_ .f32 0x00000000#32 := by
  dsimp only [W1, hostOps0]
  after_results_simp <;> rfl
theorem W1_main_arg0 (c : Dev nD) : W1 m ρ c (Proc.devRef .tc main_arg0) = m ((c : Thread nD τ).loc main_arg0) := by
  dsimp only [W1, hostOps0]
  after_results_simp <;> rfl
theorem W1_main_arg3 (c : Dev nD) : W1 m ρ c (Proc.devRef .tc main_arg3) = m ((c : Thread nD τ).loc main_arg3) := by
  dsimp only [W1, hostOps0]
  after_results_simp <;> rfl
theorem W1_main_arg4 (c : Dev nD) : W1 m ρ c (Proc.devRef .tc main_arg4) = m ((c : Thread nD τ).loc main_arg4) := by
  dsimp only [W1, hostOps0]
  after_results_simp <;> rfl
theorem W1_main_arg5 (c : Dev nD) : W1 m ρ c (Proc.devRef .tc main_arg5) = m ((c : Thread nD τ).loc main_arg5) := by
  dsimp only [W1, hostOps0]
  after_results_simp <;> rfl
theorem W1_main_arg6 (c : Dev nD) : W1 m ρ c (Proc.devRef .tc main_arg6) = m ((c : Thread nD τ).loc main_arg6) := by
  dsimp only [W1, hostOps0]
  after_results_simp <;> rfl

/-! ## After the second stretch -/

theorem W2_main_v14 (c : Dev nD) : W2 m ρ c (Proc.devRef .tc main_v14) = invSqrtDeg (dstIdx (m ((c : Thread nD τ).loc main_arg1))) := by
  show StableHlo.after hostOps0_1 (W1 m ρ c) (Proc.devRef .tc main_v14) = _
  rw [stretch1_v14, W1_main_v12, W1_main_v13, W1_main_cst_2]
  rfl
theorem W2_main_v5 (c : Dev nD) : W2 m ρ c (Proc.devRef .tc main_v5) = srcIdx (m ((c : Thread nD τ).loc main_arg1)) :=
  (stretch1_main_v5 (W1 m ρ c)).trans (W1_main_v5 m ρ c)
theorem W2_main_v6 (c : Dev nD) : W2 m ρ c (Proc.devRef .tc main_v6) = dstIdx (m ((c : Thread nD τ).loc main_arg1)) :=
  (stretch1_main_v6 (W1 m ρ c)).trans (W1_main_v6 m ρ c)
theorem W2_main_arg0 (c : Dev nD) : W2 m ρ c (Proc.devRef .tc main_arg0) = m ((c : Thread nD τ).loc main_arg0) :=
  (stretch1_main_arg0 (W1 m ρ c)).trans (W1_main_arg0 m ρ c)
theorem W2_main_arg3 (c : Dev nD) : W2 m ρ c (Proc.devRef .tc main_arg3) = m ((c : Thread nD τ).loc main_arg3) :=
  (stretch1_main_arg3 (W1 m ρ c)).trans (W1_main_arg3 m ρ c)
theorem W2_main_arg4 (c : Dev nD) : W2 m ρ c (Proc.devRef .tc main_arg4) = m ((c : Thread nD τ).loc main_arg4) :=
  (stretch1_main_arg4 (W1 m ρ c)).trans (W1_main_arg4 m ρ c)
theorem W2_main_arg5 (c : Dev nD) : W2 m ρ c (Proc.devRef .tc main_arg5) = m ((c : Thread nD τ).loc main_arg5) :=
  (stretch1_main_arg5 (W1 m ρ c)).trans (W1_main_arg5 m ρ c)
theorem W2_main_arg6 (c : Dev nD) : W2 m ρ c (Proc.devRef .tc main_arg6) = m ((c : Thread nD τ).loc main_arg6) :=
  (stretch1_main_arg6 (W1 m ρ c)).trans (W1_main_arg6 m ρ c)

/-! ## After the third stretch, at the first region's entry -/

/-- Every entry's weight. -/
theorem W3_main_v29 (c : Dev nD) : W3 m ρ c (Proc.devRef .tc main_v29)
    = edgeNorm (srcIdx (m ((c : Thread nD τ).loc main_arg1))) (dstIdx (m ((c : Thread nD τ).loc main_arg1))) := by
  show StableHlo.after hostOps0_2 (W2 m ρ c) (Proc.devRef .tc main_v29) = _
  rw [stretch2_v29, W2_main_v14, W2_main_v5, W2_main_v6]
  rfl
/-- The input bias as a row. -/
theorem W3_main_v30 (c : Dev nD) : W3 m ρ c (Proc.devRef .tc main_v30) = asRow (m ((c : Thread nD τ).loc main_arg4)) := by
  show StableHlo.after hostOps0_2 (W2 m ρ c) (Proc.devRef .tc main_v30) = _
  rw [stretch2_v30, W2_main_arg4]
theorem W3_main_v5 (c : Dev nD) : W3 m ρ c (Proc.devRef .tc main_v5) = srcIdx (m ((c : Thread nD τ).loc main_arg1)) :=
  (stretch2_main_v5 (W2 m ρ c)).trans (W2_main_v5 m ρ c)
theorem W3_main_v6 (c : Dev nD) : W3 m ρ c (Proc.devRef .tc main_v6) = dstIdx (m ((c : Thread nD τ).loc main_arg1)) :=
  (stretch2_main_v6 (W2 m ρ c)).trans (W2_main_v6 m ρ c)
theorem W3_main_arg0 (c : Dev nD) : W3 m ρ c (Proc.devRef .tc main_arg0) = m ((c : Thread nD τ).loc main_arg0) :=
  (stretch2_main_arg0 (W2 m ρ c)).trans (W2_main_arg0 m ρ c)
theorem W3_main_arg3 (c : Dev nD) : W3 m ρ c (Proc.devRef .tc main_arg3) = m ((c : Thread nD τ).loc main_arg3) :=
  (stretch2_main_arg3 (W2 m ρ c)).trans (W2_main_arg3 m ρ c)
theorem W3_main_arg5 (c : Dev nD) : W3 m ρ c (Proc.devRef .tc main_arg5) = m ((c : Thread nD τ).loc main_arg5) :=
  (stretch2_main_arg5 (W2 m ρ c)).trans (W2_main_arg5 m ρ c)
theorem W3_main_arg6 (c : Dev nD) : W3 m ρ c (Proc.devRef .tc main_arg6) = m ((c : Thread nD τ).loc main_arg6) :=
  (stretch2_main_arg6 (W2 m ρ c)).trans (W2_main_arg6 m ρ c)

end Cert.KernelIdeal.Hand

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«153210_j18992345383253_1_alg».proof.Proof.LibDenseLayer
import proofs.«153210_j18992345383253_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibRowBias.lean ====
/-
  The two dense steps of a graph-convolution layer on the extended reals, in the spellings a vector unit and a host
  program give them.

  `dense x w b` is `x · w + b` with the bias `b` a function of the column. A vector unit that is handed the bias as
  a `[1, N]` row forms it as a matrix product into a zero accumulator plus the row broadcast over the rows
  (`vec_dense_row`); its two product operands may first have passed through changes of float format or of layout that
  leave every entry as it was, so the lemma takes operands that agree with `x` and `w` entry by entry. The host program
  forms the product by a general dot product and adds the bias vector broadcast over the rows (`host_dense`); with
  the zero row for a bias the layer is the bare product (`dense_zero_row`: `s + 0 = s` on the extended reals).

  `reluB a b` is `max (a + b) 0`, the bias added to every row and the rectifier applied, again in both spellings
  (`vec_reluB`, `host_reluB`). A `[1, N]` row that is a bias vector reshaped is, as a function of the column, that vector
  (`rowOf_cast`).
-/
import proofs.«153210_j18992345383253_1_alg».proof.Proof.LibDenseLayer
import proofs.«153210_j18992345383253_1_alg».proof.Proof.LibPlainMatmul
import proofs.«153210_j18992345383253_1_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRowBias

open Idealize.ShloMosaic Idealize.ShloMosaic.ValueIdx Cert.DenseLayer Cert.LayerForms

/-- A `[1, N]` row as a function of the column. -/
def rowOf {N : ℕ} (b : (⟨2, ![1, N]⟩ : Shape).Idx → EReal) : Fin N → EReal := fun q => b (ix2 (0 : Fin 1) q)

/-- A bias added to every row, then the rectifier: entry `(p, q)` is `max (a (p, q) + b q) 0`. -/
def reluB {M N : ℕ} (a : (⟨2, ![M, N]⟩ : Shape).Idx → EReal) (b : Fin N → EReal) : (⟨2, ![M, N]⟩ : Shape).Idx → EReal :=
  fun i => max (a i + b (i 1)) 0

theorem reluB_ix2 {M N : ℕ} (a : (⟨2, ![M, N]⟩ : Shape).Idx → EReal) (b : Fin N → EReal) (p : Fin M) (q : Fin N) :
    reluB a b (ix2 p q) = max (a (ix2 p q) + b q) 0 := rfl

/-- An entry of a dense layer on a block of rows, a copy of the weights and a copy of the bias is the entry of the dense
    layer on the whole arrays in the row the block's row came from: the entry depends on that one row of the operand, on
    one column of the weights and on one entry of the bias. -/
theorem dense_block_apply {m M K N : ℕ} (xb : (⟨2, ![m, K]⟩ : Shape).Idx → EReal) (x : (⟨2, ![M, K]⟩ : Shape).Idx → EReal)
    (wb w : (⟨2, ![K, N]⟩ : Shape).Idx → EReal) (bb b : Fin N → EReal) (p : Fin m) (P : Fin M) (q : Fin N)
    (hx : ∀ k : Fin K, xb (ix2 p k) = x (ix2 P k)) (hw : ∀ k : Fin K, wb (ix2 k q) = w (ix2 k q)) (hb : bb q = b q) :
    dense xb wb bb (ix2 p q) = dense x w b (ix2 P q) := by
  show (∑ k : Fin K, xb (ix2 p k) * wb (ix2 k q)) + bb q = (∑ k : Fin K, x (ix2 P k) * w (ix2 k q)) + b q
  rw [hb]
  exact congrArg (· + b q) (Finset.sum_congr rfl fun k _ => by rw [hx, hw])

/-- The same for the bias-and-rectifier step: its entry `(p, q)` depends on entry `(p, q)` of the operand and on the bias
    at `q` only. -/
theorem reluB_block_apply {m M N : ℕ} (ab : (⟨2, ![m, N]⟩ : Shape).Idx → EReal) (a : (⟨2, ![M, N]⟩ : Shape).Idx → EReal)
    (bb b : Fin N → EReal) (p : Fin m) (P : Fin M) (q : Fin N)
    (ha : ab (ix2 p q) = a (ix2 P q)) (hb : bb q = b q) :
    reluB ab bb (ix2 p q) = reluB a b (ix2 P q) := by
  show max (ab (ix2 p q) + bb q) 0 = max (a (ix2 P q) + b q) 0
  rw [ha, hb]

/-- A bias vector reshaped to a `[1, N]` row is, column by column, the vector. -/
theorem rowOf_cast {N : ℕ} (b : FVec Ideal ⟨1, ![N]⟩ .f32) (hc : (⟨1, ![N]⟩ : Shape).ShapeCasts ⟨2, ![1, N]⟩) :
    rowOf (shapeCast ⟨2, ![1, N]⟩ b hc) = colBias b := by
  funext q
  show shapeCast ⟨2, ![1, N]⟩ b hc (ix2 (0 : Fin 1) q) = b (ix1 q)
  rw [shapeCast_a_1a_apply]

/-- The layer as a vector unit spells it, the bias a `[1, N]` row, the product's operands any arrays that agree entry by
    entry with `x` and `w`. -/
theorem vec_dense_row {M K N : ℕ} (D : DotDims ⟨2, ![M, K]⟩ ⟨2, ![K, N]⟩ ⟨2, ![M, N]⟩) (hD : D = DotDims.plain M K N)
    (prec : Option ContractPrecision) {φ₁ φ₂ : FTy} (x' : FVec Ideal ⟨2, ![M, K]⟩ φ₁) (w' : FVec Ideal ⟨2, ![K, N]⟩ φ₂)
    (x : (⟨2, ![M, K]⟩ : Shape).Idx → EReal) (w : (⟨2, ![K, N]⟩ : Shape).Idx → EReal)
    (hx : ∀ i, x' i = x i) (hw : ∀ i, w' i = w i)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x' w' (constant ⟨2, ![M, N]⟩ .f32 0x00000000#32))
        (broadcastTo ⟨2, ![M, N]⟩ (shapeCast ⟨2, ![1, N]⟩ b hc) hb)
      = dense x w (rowOf b) := by
  funext i
  obtain ⟨p, q, rfl⟩ : ∃ (p : Fin M) (q : Fin N), i = ix2 p q := ⟨i 0, i 1, eq_ix2 i⟩
  show FloatOps.matmul D prec x' w' (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  exact congrArg (· + b (ix2 (0 : Fin 1) q)) (Finset.sum_congr rfl fun k _ => by rw [hx, hw])

/-- The bias row and the rectifier as a vector unit spells them. -/
theorem vec_reluB {M N : ℕ} (a : FVec Ideal ⟨2, ![M, N]⟩ .f32) (b : FVec Ideal ⟨2, ![1, N]⟩ .f32)
    (hs : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluB a (rowOf b) := by
  funext i
  obtain ⟨p, q, rfl⟩ : ∃ (p : Fin M) (q : Fin N), i = ix2 p q := ⟨i 0, i 1, eq_ix2 i⟩
  show max (shapeCast ⟨2, ![M, N]⟩ a hs (ix2 p q) + broadcastTo ⟨2, ![M, N]⟩ (shapeCast ⟨2, ![1, N]⟩ b hc) hb (ix2 p q))
      (Ideal.ofBits .f32 0x00000000#32) = max (a (ix2 p q) + b (ix2 (0 : Fin 1) q)) 0
  rw [shapeCast_self, broadcastTo_1b_ab_apply, shapeCast_self, Ideal.ofBits_zero_f32]

/-- The layer as a host program spells it: `dense` of the bias vector. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) :=
  host_layer D hD prec x w b h1 h2

/-- With the zero row for a bias the layer is the bare product, which is the host's general dot product. -/
theorem dense_zero_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h0 : (⟨0, ![]⟩ : Shape).BroadcastsInDim ⟨2, ![1, N]⟩ ![]) :
    dense x w (rowOf (broadcastInDim ⟨2, ![1, N]⟩ ![] h0 (constant (F := Ideal) ⟨0, ![]⟩ .f32 0x00000000#32)))
      = Host.dotGeneral D prec x w := by
  funext i
  obtain ⟨p, q, rfl⟩ : ∃ (p : Fin M) (q : Fin N), i = ix2 p q := ⟨i 0, i 1, eq_ix2 i⟩
  show (∑ k : Fin K, x (ix2 p k) * w (ix2 k q)) + Ideal.ofBits .f32 0x00000000#32
    = FloatOps.dotGeneral D prec .single x w (ix2 p q)
  rw [dotGeneral_plain_apply D hD, Ideal.ofBits_zero_f32, add_zero]

/-- A bias vector broadcast to a row along a new leading axis and that row broadcast over the rows, at `(p, q)`, is the
    vector at `q`. -/
theorem bcast_rows_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ => exact hq
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ => exact hq
  rw [e2, e1]

/-- The bias and the rectifier as a host program spells them. -/
theorem host_reluB {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluB a (colBias b) := by
  funext i
  obtain ⟨p, q, rfl⟩ : ∃ (p : Fin M) (q : Fin N), i = ix2 p q := ⟨i 0, i 1, eq_ix2 i⟩
  show max (a (ix2 p q) + broadcastInDim ⟨2, ![M, N]⟩ ![0, 1] h2 (broadcastInDim ⟨2, ![1, N]⟩ ![1] h1 b) (ix2 p q))
      (Ideal.ofBits .f32 0x00000000#32) = max (a (ix2 p q) + b (ix1 q)) 0
  rw [bcast_rows_apply, Ideal.ofBits_zero_f32]

end Cert.LibRowBias

end
-- ==== Proof.Network.lean ====
/-
  The network as one function of the argument arrays.

  The input transform `x · W_in + b_in` (`inputLayer`), then two graph-convolution layers. A layer takes the node
  features `h` to `max (agg (h · W) + b, 0)`: the linear transform (`linear`: the dense layer with the zero row for a
  bias), the aggregation over the edges with self loops and symmetric inverse-square-root-degree weights (`aggOf`), the bias
  and the rectifier (`closeLayer`). The result is the last layer's `[102400, 128]` output laid out as `[64, 1600, 128]`,
  64 graphs of 1600 nodes each (`network`).
-/
import proofs.«153210_j18992345383253_1_alg».proof.Proof.GraphOps
import proofs.«153210_j18992345383253_1_alg».proof.Proof.LibRowBias

noncomputable section

namespace Cert.KernelIdeal.Hand

open Cert.KernelIdeal Cert.KernelIdeal.Gen Idealize.ShloMosaic Cert.DenseLayer Cert.LibRowBias

/-- `x · W_in + b_in`. -/
def inputLayer (x : F32 S102400x128) (win : F32 S128x128) (bin : F32 S128) : F32 S102400x128 :=
  dense x win (rowOf (asRow bin))
/-- `h · W`, as the dense layer with the zero row for a bias. -/
def linear (h : F32 S102400x128) (w : F32 S128x128) : F32 S102400x128 := dense h w (rowOf zeroRow)
/-- The aggregation of `t` over the edges `e` with self loops, every entry weighted. -/
def aggOf (e : I32 S2x1638400) (t : F32 S102400x128) : F32 S102400x128 :=
  aggregate t (srcIdx e) (dstIdx e) (edgeNorm (srcIdx e) (dstIdx e))
/-- `max (a + b, 0)`. -/
def closeLayer (a : F32 S102400x128) (b : F32 S128) : F32 S102400x128 := reluB a (rowOf (asRow b))
/-- One graph-convolution layer. -/
def gcnLayer (e : I32 S2x1638400) (h : F32 S102400x128) (w : F32 S128x128) (b : F32 S128) : F32 S102400x128 :=
  closeLayer (aggOf e (linear h w)) b
/-- The network. -/
def network (x : F32 S102400x128) (e : I32 S2x1638400) (win : F32 S128x128) (bin : F32 S128) (ws : F32 S2x128x128)
    (bs : F32 S2x128) : F32 S64x1600x128 :=
  shapeCast S64x1600x128
    (gcnLayer e (gcnLayer e (inputLayer x win bin) (weight0 ws) (bias0 bs)) (weight1 ws) (bias1 bs))
    shapeCasts_S102400x128_S64x1600x128

end Cert.KernelIdeal.Hand

end
-- ==== Proof.Region0.lean ====
/-
  Region 0 of the idealized kernel program: the input transform `x · W_in + b_in`, computed block of rows by block of rows.

  The region's grid has 25 points. Point `t` is handed rows `4096·t … 4096·t + 4095` of the `[102400, 128]` operand, the
  whole `[128, 128]` weight matrix and the whole `[1, 128]` bias row, and writes back rows `4096·t … 4096·t + 4095` of
  the result. The body's stored value is the dense layer of its three blocks; an entry of a dense layer depends on one
  row of the operand only, so what point `t` writes back is its block of rows of the dense layer of the whole arrays.
  The 25 blocks of rows tile the result, so after the region the result array is the dense layer of the arrays the region
  found (`arr0`), whatever those were: the statement is about any contents `V` at the region's entry.
-/
import proofs.«153210_j18992345383253_1_alg».proof.Proof.Gen.KernelIdeal.Frame
import proofs.«153210_j18992345383253_1_alg».proof.Proof.LibRowBias
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.DenseLayer Cert.LibRowBias

variable (V : (c : Dev nD) → (b : Ref sig .tc) → Buf (Elt Ideal) ((c : Thread nD τ).loc b))

theorem zero_offsets0 : (![0, 0] : Fin 2 → Nat) = fun _ => 0 := funext fun a => by fin_cases a <;> rfl

/-- The body's stored value is the dense layer of its three loaded blocks (the two product operands pass through a change of
    float format first, which leaves every entry as it was). -/
theorem pay0_eq (x0 : Vec Ideal S4096x128 .f32) (x1 : Vec Ideal S128x128 .f32) (x2 : Vec Ideal S1x128 .f32) :
    k0_pay1 (F := Ideal) x0 x1 x2 = dense x0 x1 (rowOf x2) := by
  unfold k0_pay1
  exact vec_dense_row _ rfl none _ _ x0 x1 (fun _ => rfl) (fun _ => rfl) x2 _ _

/-- Where each window's block sits at point `t`: the operand's and the result's blocks are block `t` along the rows,
    the weight matrix and the bias row are their one block. Decided over the 25 points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The dense layer of the arrays the region finds. -/
abbrev G0 (c : Dev nD) : S102400x128.Idx → EReal :=
  dense (V c main_arg0 : S102400x128.Idx → EReal) (V c main_arg3 : S128x128.Idx → EReal) (rowOf (V c main_v30 : S1x128.Idx → EReal))

/-- What point `t` writes back is block `t` of rows of `G0`. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_offsets0]
  simp only [View.ld_unit_zero (S := S4096x128) zero_offsets0, View.ld_unit_zero (S := S128x128) zero_offsets0,
    View.ld_unit_zero (S := S1x128) zero_offsets0]
  rw [pay0_eq]
  obtain ⟨e00, e01, e10, e11, e20, e21, e30, e31⟩ := idx0 t
  have hN : cfg0.N = 25 := N_0
  have ht : t.val < 25 := hN ▸ t.isLt
  refine funext fun (j : S4096x128.Idx) => ?_
  obtain ⟨p, q, rfl⟩ : ∃ (p : Fin 4096) (q : Fin 128), j = ix2 p q := ⟨j 0, j 1, eq_ix2 j⟩
  have hP : 4096 * t.val + p.val < 102400 := by have := p.isLt; omega
  have hemb : ((cfg0.win 3).blk t).view.emb (ix2 p q) = (ix2 (⟨4096 * t.val + p.val, hP⟩ : Fin 102400) q : S102400x128.Idx) := by
    funext a; apply Fin.ext
    match a with
    | ⟨0, _⟩ => show win0_3.index t (0 : Fin 2) * 4096 + 1 * p.val = 4096 * t.val + p.val; omega
    | ⟨1, _⟩ => show win0_3.index t (1 : Fin 2) * 128 + 1 * q.val = q.val; omega
  show dense (iblk0 V c 0 t : S4096x128.Idx → EReal) (iblk0 V c 1 t : S128x128.Idx → EReal)
      (rowOf (iblk0 V c 2 t : S1x128.Idx → EReal)) (ix2 p q) = G0 V c (((cfg0.win 3).blk t).view.emb (ix2 p q))
  rw [hemb]
  refine dense_block_apply _ _ _ _ _ _ p ⟨4096 * t.val + p.val, hP⟩ q (fun k => ?_) (fun k => ?_) ?_
  · show (V c main_arg0 : S102400x128.Idx → EReal) (((cfg0.win 0).blk t).view.emb (ix2 p k)) = _
    refine congrArg (V c main_arg0 : S102400x128.Idx → EReal) (funext fun a => Fin.ext ?_)
    match a with
    | ⟨0, _⟩ => show win0_0.index t (0 : Fin 2) * 4096 + 1 * p.val = 4096 * t.val + p.val; omega
    | ⟨1, _⟩ => show win0_0.index t (1 : Fin 2) * 128 + 1 * k.val = k.val; omega
  · show (V c main_arg3 : S128x128.Idx → EReal) (((cfg0.win 1).blk t).view.emb (ix2 k q)) = _
    refine congrArg (V c main_arg3 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show (V c main_v30 : S1x128.Idx → EReal) (((cfg0.win 2).blk t).view.emb (ix2 (0 : Fin 1) q)) = _
    refine congrArg (V c main_v30 : S1x128.Idx → EReal) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

/-- An index of the result array is in point `t`'s block iff each coordinate is in the block's range on its axis. -/
theorem mem_blk0 (t : Fin cfg0.N) (i : S102400x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v31).slice (win0_3.rect t)).set ↔ _
  rw [View.set_slice_whole, Rect.mem_set_unit]
  exact Iff.rfl

/-- After the region the result array is the dense layer of the arrays the region found: row `r` is written back by
    point `r / 4096`. -/
theorem arr0 (c : Dev nD) : (dat0 V c).arrAt 3 cfg0.N = G0 V c :=
  (dat0 V c).arrAt_eq_of_cover 3 (G0 V c) (fun t _ => flushed0 V c t) fun i => by
    have hi0 : (i 0).val < 102400 := (i 0).isLt
    have hi1 : (i 1).val < 128 := (i 1).isLt
    have hN : cfg0.N = 25 := N_0
    have hlt : (i 0).val / 4096 < cfg0.N := by omega
    obtain ⟨-, -, -, -, -, -, e30, e31⟩ := idx0 ⟨(i 0).val / 4096, hlt⟩
    refine ⟨⟨(i 0).val / 4096, hlt⟩, flush0_3 _, ?_⟩
    rw [mem_blk0]
    intro a
    match a with
    | ⟨0, _⟩ =>
      show win0_3.index ⟨(i 0).val / 4096, hlt⟩ (0 : Fin 2) * 4096 ≤ (i 0).val
        ∧ (i 0).val < win0_3.index ⟨(i 0).val / 4096, hlt⟩ (0 : Fin 2) * 4096 + 4096
      rw [e30]; show (i 0).val / 4096 * 4096 ≤ (i 0).val ∧ (i 0).val < (i 0).val / 4096 * 4096 + 4096; omega
    | ⟨1, _⟩ =>
      show win0_3.index ⟨(i 0).val / 4096, hlt⟩ (1 : Fin 2) * 128 ≤ (i 1).val
        ∧ (i 1).val < win0_3.index ⟨(i 0).val / 4096, hlt⟩ (1 : Fin 2) * 128 + 128
      omega

end Cert.KernelIdeal.Hand

end
-- ==== Proof.Region1.lean ====
/-
  Region 1 of the idealized kernel program: the first layer's linear transform `h · W₀`, with the zero row for a bias, computed block of rows by block of rows.

  The region's grid has 25 points. Point `t` is handed rows `4096·t … 4096·t + 4095` of the `[102400, 128]` operand, the
  whole `[128, 128]` weight matrix and the whole `[1, 128]` bias row, and writes back rows `4096·t … 4096·t + 4095` of
  the result. The body's stored value is the dense layer of its three blocks; an entry of a dense layer depends on one
  row of the operand only, so what point `t` writes back is its block of rows of the dense layer of the whole arrays.
  The 25 blocks of rows tile the result, so after the region the result array is the dense layer of the arrays the region
  found (`arr1`), whatever those were: the statement is about any contents `V` at the region's entry.
-/
import proofs.«153210_j18992345383253_1_alg».proof.Proof.Gen.KernelIdeal.Frame
import proofs.«153210_j18992345383253_1_alg».proof.Proof.LibRowBias
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.DenseLayer Cert.LibRowBias

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's stored value is the dense layer of its three loaded blocks (the two product operands pass through a
    layout cast onto their own shape and a change of float format first: both leave every entry as it was). -/
theorem pay1_eq (x0 : Vec Ideal S4096x128 .f32) (x1 : Vec Ideal S128x128 .f32) (x2 : Vec Ideal S1x128 .f32) :
    k1_pay1 (F := Ideal) x0 x1 x2 = dense x0 x1 (rowOf x2) := by
  unfold k1_pay1
  exact vec_dense_row _ rfl none _ _ x0 x1 (fun i => congrFun (shapeCast_self x0 _) i) (fun i => congrFun (shapeCast_self x1 _) i) x2 _ _

/-- Where each window's block sits at point `t`: the operand's and the result's blocks are block `t` along the rows,
    the weight matrix and the bias row are their one block. Decided over the 25 points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense layer of the arrays the region finds. -/
abbrev G1 (c : Dev nD) : S102400x128.Idx → EReal :=
  dense (V c main_v31 : S102400x128.Idx → EReal) (V c main_v33 : S128x128.Idx → EReal) (rowOf (V c main_v34 : S1x128.Idx → EReal))

/-- What point `t` writes back is block `t` of rows of `G1`. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero zero_offsets1]
  simp only [View.ld_unit_zero (S := S4096x128) zero_offsets1, View.ld_unit_zero (S := S128x128) zero_offsets1,
    View.ld_unit_zero (S := S1x128) zero_offsets1]
  rw [pay1_eq]
  obtain ⟨e00, e01, e10, e11, e20, e21, e30, e31⟩ := idx1 t
  have hN : cfg1.N = 25 := N_1
  have ht : t.val < 25 := hN ▸ t.isLt
  refine funext fun (j : S4096x128.Idx) => ?_
  obtain ⟨p, q, rfl⟩ : ∃ (p : Fin 4096) (q : Fin 128), j = ix2 p q := ⟨j 0, j 1, eq_ix2 j⟩
  have hP : 4096 * t.val + p.val < 102400 := by have := p.isLt; omega
  have hemb : ((cfg1.win 3).blk t).view.emb (ix2 p q) = (ix2 (⟨4096 * t.val + p.val, hP⟩ : Fin 102400) q : S102400x128.Idx) := by
    funext a; apply Fin.ext
    match a with
    | ⟨0, _⟩ => show win1_3.index t (0 : Fin 2) * 4096 + 1 * p.val = 4096 * t.val + p.val; omega
    | ⟨1, _⟩ => show win1_3.index t (1 : Fin 2) * 128 + 1 * q.val = q.val; omega
  show dense (iblk1 V c 0 t : S4096x128.Idx → EReal) (iblk1 V c 1 t : S128x128.Idx → EReal)
      (rowOf (iblk1 V c 2 t : S1x128.Idx → EReal)) (ix2 p q) = G1 V c (((cfg1.win 3).blk t).view.emb (ix2 p q))
  rw [hemb]
  refine dense_block_apply _ _ _ _ _ _ p ⟨4096 * t.val + p.val, hP⟩ q (fun k => ?_) (fun k => ?_) ?_
  · show (V c main_v31 : S102400x128.Idx → EReal) (((cfg1.win 0).blk t).view.emb (ix2 p k)) = _
    refine congrArg (V c main_v31 : S102400x128.Idx → EReal) (funext fun a => Fin.ext ?_)
    match a with
    | ⟨0, _⟩ => show win1_0.index t (0 : Fin 2) * 4096 + 1 * p.val = 4096 * t.val + p.val; omega
    | ⟨1, _⟩ => show win1_0.index t (1 : Fin 2) * 128 + 1 * k.val = k.val; omega
  · show (V c main_v33 : S128x128.Idx → EReal) (((cfg1.win 1).blk t).view.emb (ix2 k q)) = _
    refine congrArg (V c main_v33 : S128x128.Idx → EReal) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show (V c main_v34 : S1x128.Idx → EReal) (((cfg1.win 2).blk t).view.emb (ix2 (0 : Fin 1) q)) = _
    refine congrArg (V c main_v34 : S1x128.Idx → EReal) (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 128 + 1 * q.val = q.val; omega

/-- An index of the result array is in point `t`'s block iff each coordinate is in the block's range on its axis. -/
theorem mem_blk1 (t : Fin cfg1.N) (i : S102400x128.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v35).slice (win1_3.rect t)).set ↔ _
  rw [View.set_slice_whole, Rect.mem_set_unit]
  exact Iff.rfl

/-- After the region the result array is the dense layer of the arrays the region found: row `r` is written back by
    point `r / 4096`. -/
theorem arr1 (c : Dev nD) : (dat1 V c).arrAt 3 cfg1.N = G1 V c :=
  (dat1 V c).arrAt_eq_of_cover 3 (G1 V c) (fun t _ => flushed1 V c t) fun i => by
    have hi0 : (i 0).val < 102400 := (i 0).isLt
    have hi1 : (i 1).val < 128 := (i 1).isLt
    have hN : cfg1.N = 25 := N_1
    have hlt : (i 0).val / 4096 < cfg1.N := by omega
    obtain ⟨-, -, -, -, -, -, e30, e31⟩ := idx1 ⟨(i 0).val / 4096, hlt⟩
    refine ⟨⟨(i 0).val / 4096, hlt⟩, flush1_3 _, ?_⟩
    rw [mem_blk1]
    intro a
    match a with
    | ⟨0, _⟩ =>
      show win1_3.index ⟨(i 0).val / 4096, hlt⟩ (0 : Fin 2) * 4096 ≤ (i 0).val
        ∧ (i 0).val < win1_3.index ⟨(i 0).val / 4096, hlt⟩ (0 : Fin 2) * 4096 + 4096
      rw [e30]; show (i 0).val / 4096 * 4096 ≤ (i 0).val ∧ (i 0).val < (i 0).val / 4096 * 4096 + 4096; omega
    | ⟨1, _⟩ =>
      show win1_3.index ⟨(i 0).val / 4096, hlt⟩ (1 : Fin 2) * 128 ≤ (i 1).val
        ∧ (i 1).val < win1_3.index ⟨(i 0).val / 4096, hlt⟩ (1 : Fin 2) * 128 + 128
      omega

end Cert.KernelIdeal.Hand

end
-- ==== Proof.Region2.lean ====
/-
  Region 2 of the idealized kernel program: the first layer's closing step, `max (agg + b, 0)`, computed block of rows by block of rows.

  The region's grid has 25 points. Point `t` is handed rows `4096·t … 4096·t + 4095` of the `[102400, 128]` operand and
  the whole `[1, 128]` bias row, and writes back the same rows of the result. The body's stored value is its block with
  the bias added to every row and clamped below at zero; entry `(p, q)` of that depends on entry `(p, q)` of the
  operand and on the bias at `q` only, so what point `t` writes back is its block of rows of the same operation on the
  whole arrays. The 25 blocks of rows tile the result, so after the region the result array is that operation on the arrays
  the region found (`arr2`), whatever those were: the statement is about any contents `V` at the region's entry.
-/
import proofs.«153210_j18992345383253_1_alg».proof.Proof.Gen.KernelIdeal.Frame
import proofs.«153210_j18992345383253_1_alg».proof.Proof.LibRowBias
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowBias

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's stored value is its operand block with the bias row added to every row, clamped below at zero. -/
theorem pay2_eq (x0 : Vec Ideal S4096x128 .f32) (x1 : Vec Ideal S1x128 .f32) :
    k2_pay1 (F := Ideal) x0 x1 = reluB x0 (rowOf x1) := by
  unfold k2_pay1
  exact vec_reluB x0 x1 _ _ _

/-- Where each window's block sits at point `t`: the operand's and the result's blocks are block `t` along the rows,
    the bias row is its one block. Decided over the 25 points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The bias added and the rectifier applied to the arrays the region finds. -/
abbrev G2 (c : Dev nD) : S102400x128.Idx → EReal :=
  reluB (V c main_v48 : S102400x128.Idx → EReal) (rowOf (V c main_v51 : S1x128.Idx → EReal))

/-- What point `t` writes back is block `t` of rows of `G2`. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero zero_offsets2]
  simp only [View.ld_unit_zero (S := S4096x128) zero_offsets2, View.ld_unit_zero (S := S1x128) zero_offsets2]
  rw [pay2_eq]
  obtain ⟨e00, e01, e10, e11, e20, e21⟩ := idx2 t
  have hN : cfg2.N = 25 := N_2
  have ht : t.val < 25 := hN ▸ t.isLt
  refine funext fun (j : S4096x128.Idx) => ?_
  obtain ⟨p, q, rfl⟩ : ∃ (p : Fin 4096) (q : Fin 128), j = ix2 p q := ⟨j 0, j 1, eq_ix2 j⟩
  have hP : 4096 * t.val + p.val < 102400 := by have := p.isLt; omega
  have hemb : ((cfg2.win 2).blk t).view.emb (ix2 p q) = (ix2 (⟨4096 * t.val + p.val, hP⟩ : Fin 102400) q : S102400x128.Idx) := by
    funext a; apply Fin.ext
    match a with
    | ⟨0, _⟩ => show win2_2.index t (0 : Fin 2) * 4096 + 1 * p.val = 4096 * t.val + p.val; omega
    | ⟨1, _⟩ => show win2_2.index t (1 : Fin 2) * 128 + 1 * q.val = q.val; omega
  show reluB (iblk2 V c 0 t : S4096x128.Idx → EReal) (rowOf (iblk2 V c 1 t : S1x128.Idx → EReal)) (ix2 p q)
      = G2 V c (((cfg2.win 2).blk t).view.emb (ix2 p q))
  rw [hemb]
  refine reluB_block_apply _ _ _ _ p ⟨4096 * t.val + p.val, hP⟩ q ?_ ?_
  · show (V c main_v48 : S102400x128.Idx → EReal) (((cfg2.win 0).blk t).view.emb (ix2 p q)) = _
    refine congrArg (V c main_v48 : S102400x128.Idx → EReal) (funext fun a => Fin.ext ?_)
    match a with
    | ⟨0, _⟩ => show win2_0.index t (0 : Fin 2) * 4096 + 1 * p.val = 4096 * t.val + p.val; omega
    | ⟨1, _⟩ => show win2_0.index t (1 : Fin 2) * 128 + 1 * q.val = q.val; omega
  · show (V c main_v51 : S1x128.Idx → EReal) (((cfg2.win 1).blk t).view.emb (ix2 (0 : Fin 1) q)) = _
    refine congrArg (V c main_v51 : S1x128.Idx → EReal) (funext fun a => Fin.ext ?_)
    match a with
    | ⟨0, _⟩ => show win2_1.index t (0 : Fin 2) * 1 + 1 * (0 : Fin 1).val = (0 : Fin 1).val; omega
    | ⟨1, _⟩ => show win2_1.index t (1 : Fin 2) * 128 + 1 * q.val = q.val; omega

/-- An index of the result array is in point `t`'s block iff each coordinate is in the block's range on its axis. -/
theorem mem_blk2 (t : Fin cfg2.N) (i : S102400x128.Idx) :
    i ∈ ((cfg2.win 2).blk t).view.set ↔ ∀ a : Fin 2, win2_2.index t a * S4096x128.size a ≤ (i a).val
      ∧ (i a).val < win2_2.index t a * S4096x128.size a + S4096x128.size a := by
  show i ∈ ((View.whole main_v52).slice (win2_2.rect t)).set ↔ _
  rw [View.set_slice_whole, Rect.mem_set_unit]
  exact Iff.rfl

/-- After the region the result array is the bias added and the rectifier applied to the arrays the region found: row
    `r` is written back by point `r / 4096`. -/
theorem arr2 (c : Dev nD) : (dat2 V c).arrAt 2 cfg2.N = G2 V c :=
  (dat2 V c).arrAt_eq_of_cover 2 (G2 V c) (fun t _ => flushed2 V c t) fun i => by
    have hi0 : (i 0).val < 102400 := (i 0).isLt
    have hi1 : (i 1).val < 128 := (i 1).isLt
    have hN : cfg2.N = 25 := N_2
    have hlt : (i 0).val / 4096 < cfg2.N := by omega
    obtain ⟨-, -, -, -, e20, e21⟩ := idx2 ⟨(i 0).val / 4096, hlt⟩
    refine ⟨⟨(i 0).val / 4096, hlt⟩, flush2_2 _, ?_⟩
    rw [mem_blk2]
    intro a
    match a with
    | ⟨0, _⟩ =>
      show win2_2.index ⟨(i 0).val / 4096, hlt⟩ (0 : Fin 2) * 4096 ≤ (i 0).val
        ∧ (i 0).val < win2_2.index ⟨(i 0).val / 4096, hlt⟩ (0 : Fin 2) * 4096 + 4096
      rw [e20]; show (i 0).val / 4096 * 4096 ≤ (i 0).val ∧ (i 0).val < (i 0).val / 4096 * 4096 + 4096; omega
    | ⟨1, _⟩ =>
      show win2_2.index ⟨(i 0).val / 4096, hlt⟩ (1 : Fin 2) * 128 ≤ (i 1).val
        ∧ (i 1).val < win2_2.index ⟨(i 0).val / 4096, hlt⟩ (1 : Fin 2) * 128 + 128
      omega

end Cert.KernelIdeal.Hand

end
-- ==== Proof.Region3.lean ====
/-
  Region 3 of the idealized kernel program: the second layer's linear transform `h · W₁`, with the zero row for a bias, computed block of rows by block of rows.

  The region's grid has 25 points. Point `t` is handed rows `4096·t … 4096·t + 4095` of the `[102400, 128]` operand, the
  whole `[128, 128]` weight matrix and the whole `[1, 128]` bias row, and writes back rows `4096·t … 4096·t + 4095` of
  the result. The body's stored value is the dense layer of its three blocks; an entry of a dense layer depends on one
  row of the operand only, so what point `t` writes back is its block of rows of the dense layer of the whole arrays.
  The 25 blocks of rows tile the result, so after the region the result array is the dense layer of the arrays the region
  found (`arr3`), whatever those were: the statement is about any contents `V` at the region's entry.
-/
import proofs.«153210_j18992345383253_1_alg».proof.Proof.Gen.KernelIdeal.Frame
import proofs.«153210_j18992345383253_1_alg».proof.Proof.LibRowBias
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.DenseLayer Cert.LibRowBias

variable (V : (c : Dev nD) → (b : Ref sig .tc) → Buf (Elt Ideal) ((c : Thread nD τ).loc b))

theorem zero_offsets3 : (![0, 0] : Fin 2 → Nat) = fun _ => 0 := funext fun a => by fin_cases a <;> rfl

/-- The body's stored value is the dense layer of its three loaded blocks (the two product operands pass through a
    layout cast onto their own shape and a change of float format first: both leave every entry as it was). -/
theorem pay3_eq (x0 : Vec Ideal S4096x128 .f32) (x1 : Vec Ideal S128x128 .f32) (x2 : Vec Ideal S1x128 .f32) :
    k3_pay1 (F := Ideal) x0 x1 x2 = dense x0 x1 (rowOf x2) := by
  unfold k3_pay1
  exact vec_dense_row _ rfl none _ _ x0 x1 (fun i => congrFun (shapeCast_self x0 _) i) (fun i => congrFun (shapeCast_self x1 _) i) x2 _ _

/-- Where each window's block sits at point `t`: the operand's and the result's blocks are block `t` along the rows,
    the weight matrix and the bias row are their one block. Decided over the 25 points. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The dense layer of the arrays the region finds. -/
abbrev G3 (c : Dev nD) : S102400x128.Idx → EReal :=
  dense (V c main_v52 : S102400x128.Idx → EReal) (V c main_v54 : S128x128.Idx → EReal) (rowOf (V c main_v55 : S1x128.Idx → EReal))

/-- What point `t` writes back is block `t` of rows of `G3`. -/
theorem flushed3 (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero zero_offsets3]
  simp only [View.ld_unit_zero (S := S4096x128) zero_offsets3, View.ld_unit_zero (S := S128x128) zero_offsets3,
    View.ld_unit_zero (S := S1x128) zero_offsets3]
  rw [pay3_eq]
  obtain ⟨e00, e01, e10, e11, e20, e21, e30, e31⟩ := idx3 t
  have hN : cfg3.N = 25 := N_3
  have ht : t.val < 25 := hN ▸ t.isLt
  refine funext fun (j : S4096x128.Idx) => ?_
  obtain ⟨p, q, rfl⟩ : ∃ (p : Fin 4096) (q : Fin 128), j = ix2 p q := ⟨j 0, j 1, eq_ix2 j⟩
  have hP : 4096 * t.val + p.val < 102400 := by have := p.isLt; omega
  have hemb : ((cfg3.win 3).blk t).view.emb (ix2 p q) = (ix2 (⟨4096 * t.val + p.val, hP⟩ : Fin 102400) q : S102400x128.Idx) := by
    funext a; apply Fin.ext
    match a with
    | ⟨0, _⟩ => show win3_3.index t (0 : Fin 2) * 4096 + 1 * p.val = 4096 * t.val + p.val; omega
    | ⟨1, _⟩ => show win3_3.index t (1 : Fin 2) * 128 + 1 * q.val = q.val; omega
  show dense (iblk3 V c 0 t : S4096x128.Idx → EReal) (iblk3 V c 1 t : S128x128.Idx → EReal)
      (rowOf (iblk3 V c 2 t : S1x128.Idx → EReal)) (ix2 p q) = G3 V c (((cfg3.win 3).blk t).view.emb (ix2 p q))
  rw [hemb]
  refine dense_block_apply _ _ _ _ _ _ p ⟨4096 * t.val + p.val, hP⟩ q (fun k => ?_) (fun k => ?_) ?_
  · show (V c main_v52 : S102400x128.Idx → EReal) (((cfg3.win 0).blk t).view.emb (ix2 p k)) = _
    refine congrArg (V c main_v52 : S102400x128.Idx → EReal) (funext fun a => Fin.ext ?_)
    match a with
    | ⟨0, _⟩ => show win3_0.index t (0 : Fin 2) * 4096 + 1 * p.val = 4096 * t.val + p.val; omega
    | ⟨1, _⟩ => show win3_0.index t (1 : Fin 2) * 128 + 1 * k.val = k.val; omega
  · show (V c main_v54 : S128x128.Idx → EReal) (((cfg3.win 1).blk t).view.emb (ix2 k q)) = _
    refine congrArg (V c main_v54 : S128x128.Idx → EReal) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show (V c main_v55 : S1x128.Idx → EReal) (((cfg3.win 2).blk t).view.emb (ix2 (0 : Fin 1) q)) = _
    refine congrArg (V c main_v55 : S1x128.Idx → EReal) (funext fun a => Fin.ext ?_)
    match a with
    | ⟨0, _⟩ => show win3_2.index t (0 : Fin 2) * 1 + 1 * (0 : Fin 1).val = (0 : Fin 1).val; omega
    | ⟨1, _⟩ => show win3_2.index t (1 : Fin 2) * 128 + 1 * q.val = q.val; omega

/-- An index of the result array is in point `t`'s block iff each coordinate is in the block's range on its axis. -/
theorem mem_blk3 (t : Fin cfg3.N) (i : S102400x128.Idx) :
    i ∈ ((cfg3.win 3).blk t).view.set ↔ ∀ a : Fin 2, win3_3.index t a * S4096x128.size a ≤ (i a).val
      ∧ (i a).val < win3_3.index t a * S4096x128.size a + S4096x128.size a := by
  show i ∈ ((View.whole main_v56).slice (win3_3.rect t)).set ↔ _
  rw [View.set_slice_whole, Rect.mem_set_unit]
  exact Iff.rfl

/-- After the region the result array is the dense layer of the arrays the region found: row `r` is written back by
    point `r / 4096`. -/
theorem arr3 (c : Dev nD) : (dat3 V c).arrAt 3 cfg3.N = G3 V c :=
  (dat3 V c).arrAt_eq_of_cover 3 (G3 V c) (fun t _ => flushed3 V c t) fun i => by
    have hi0 : (i 0).val < 102400 := (i 0).isLt
    have hi1 : (i 1).val < 128 := (i 1).isLt
    have hN : cfg3.N = 25 := N_3
    have hlt : (i 0).val / 4096 < cfg3.N := by omega
    obtain ⟨-, -, -, -, -, -, e30, e31⟩ := idx3 ⟨(i 0).val / 4096, hlt⟩
    refine ⟨⟨(i 0).val / 4096, hlt⟩, flush3_3 _, ?_⟩
    rw [mem_blk3]
    intro a
    match a with
    | ⟨0, _⟩ =>
      show win3_3.index ⟨(i 0).val / 4096, hlt⟩ (0 : Fin 2) * 4096 ≤ (i 0).val
        ∧ (i 0).val < win3_3.index ⟨(i 0).val / 4096, hlt⟩ (0 : Fin 2) * 4096 + 4096
      rw [e30]; show (i 0).val / 4096 * 4096 ≤ (i 0).val ∧ (i 0).val < (i 0).val / 4096 * 4096 + 4096; omega
    | ⟨1, _⟩ =>
      show win3_3.index ⟨(i 0).val / 4096, hlt⟩ (1 : Fin 2) * 128 ≤ (i 1).val
        ∧ (i 1).val < win3_3.index ⟨(i 0).val / 4096, hlt⟩ (1 : Fin 2) * 128 + 128
      omega

end Cert.KernelIdeal.Hand

end
-- ==== Proof.Region4.lean ====
/-
  Region 4 of the idealized kernel program: the second layer's closing step, `max (agg + b, 0)`, computed block of rows by block of rows.

  The region's grid has 25 points. Point `t` is handed rows `4096·t … 4096·t + 4095` of the `[102400, 128]` operand and
  the whole `[1, 128]` bias row, and writes back the same rows of the result. The body's stored value is its block with
  the bias added to every row and clamped below at zero; entry `(p, q)` of that depends on entry `(p, q)` of the
  operand and on the bias at `q` only, so what point `t` writes back is its block of rows of the same operation on the
  whole arrays. The 25 blocks of rows tile the result, so after the region the result array is that operation on the arrays
  the region found (`arr4`), whatever those were: the statement is about any contents `V` at the region's entry.
-/
import proofs.«153210_j18992345383253_1_alg».proof.Proof.Gen.KernelIdeal.Frame
import proofs.«153210_j18992345383253_1_alg».proof.Proof.LibRowBias
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowBias

variable (V : (c : Dev nD) → (b : Ref sig .tc) → Buf (Elt Ideal) ((c : Thread nD τ).loc b))

theorem zero_offsets4 : (![0, 0] : Fin 2 → Nat) = fun _ => 0 := funext fun a => by fin_cases a <;> rfl

/-- The body's stored value is its operand block with the bias row added to every row, clamped below at zero. -/
theorem pay4_eq (x0 : Vec Ideal S4096x128 .f32) (x1 : Vec Ideal S1x128 .f32) :
    k4_pay1 (F := Ideal) x0 x1 = reluB x0 (rowOf x1) := by
  unfold k4_pay1
  exact vec_reluB x0 x1 _ _ _

/-- Where each window's block sits at point `t`: the operand's and the result's blocks are block `t` along the rows,
    the bias row is its one block. Decided over the 25 points. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The bias added and the rectifier applied to the arrays the region finds. -/
abbrev G4 (c : Dev nD) : S102400x128.Idx → EReal :=
  reluB (V c main_v69 : S102400x128.Idx → EReal) (rowOf (V c main_v72 : S1x128.Idx → EReal))

/-- What point `t` writes back is block `t` of rows of `G4`. -/
theorem flushed4 (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero zero_offsets4]
  simp only [View.ld_unit_zero (S := S4096x128) zero_offsets4, View.ld_unit_zero (S := S1x128) zero_offsets4]
  rw [pay4_eq]
  obtain ⟨e00, e01, e10, e11, e20, e21⟩ := idx4 t
  have hN : cfg4.N = 25 := N_4
  have ht : t.val < 25 := hN ▸ t.isLt
  refine funext fun (j : S4096x128.Idx) => ?_
  obtain ⟨p, q, rfl⟩ : ∃ (p : Fin 4096) (q : Fin 128), j = ix2 p q := ⟨j 0, j 1, eq_ix2 j⟩
  have hP : 4096 * t.val + p.val < 102400 := by have := p.isLt; omega
  have hemb : ((cfg4.win 2).blk t).view.emb (ix2 p q) = (ix2 (⟨4096 * t.val + p.val, hP⟩ : Fin 102400) q : S102400x128.Idx) := by
    funext a; apply Fin.ext
    match a with
    | ⟨0, _⟩ => show win4_2.index t (0 : Fin 2) * 4096 + 1 * p.val = 4096 * t.val + p.val; omega
    | ⟨1, _⟩ => show win4_2.index t (1 : Fin 2) * 128 + 1 * q.val = q.val; omega
  show reluB (iblk4 V c 0 t : S4096x128.Idx → EReal) (rowOf (iblk4 V c 1 t : S1x128.Idx → EReal)) (ix2 p q)
      = G4 V c (((cfg4.win 2).blk t).view.emb (ix2 p q))
  rw [hemb]
  refine reluB_block_apply _ _ _ _ p ⟨4096 * t.val + p.val, hP⟩ q ?_ ?_
  · show (V c main_v69 : S102400x128.Idx → EReal) (((cfg4.win 0).blk t).view.emb (ix2 p q)) = _
    refine congrArg (V c main_v69 : S102400x128.Idx → EReal) (funext fun a => Fin.ext ?_)
    match a with
    | ⟨0, _⟩ => show win4_0.index t (0 : Fin 2) * 4096 + 1 * p.val = 4096 * t.val + p.val; omega
    | ⟨1, _⟩ => show win4_0.index t (1 : Fin 2) * 128 + 1 * q.val = q.val; omega
  · show (V c main_v72 : S1x128.Idx → EReal) (((cfg4.win 1).blk t).view.emb (ix2 (0 : Fin 1) q)) = _
    refine congrArg (V c main_v72 : S1x128.Idx → EReal) (funext fun a => Fin.ext ?_)
    match a with
    | ⟨0, _⟩ => show win4_1.index t (0 : Fin 2) * 1 + 1 * (0 : Fin 1).val = (0 : Fin 1).val; omega
    | ⟨1, _⟩ => show win4_1.index t (1 : Fin 2) * 128 + 1 * q.val = q.val; omega

/-- An index of the result array is in point `t`'s block iff each coordinate is in the block's range on its axis. -/
theorem mem_blk4 (t : Fin cfg4.N) (i : S102400x128.Idx) :
    i ∈ ((cfg4.win 2).blk t).view.set ↔ ∀ a : Fin 2, win4_2.index t a * S4096x128.size a ≤ (i a).val
      ∧ (i a).val < win4_2.index t a * S4096x128.size a + S4096x128.size a := by
  show i ∈ ((View.whole main_v73).slice (win4_2.rect t)).set ↔ _
  rw [View.set_slice_whole, Rect.mem_set_unit]
  exact Iff.rfl

/-- After the region the result array is the bias added and the rectifier applied to the arrays the region found: row
    `r` is written back by point `r / 4096`. -/
theorem arr4 (c : Dev nD) : (dat4 V c).arrAt 2 cfg4.N = G4 V c :=
  (dat4 V c).arrAt_eq_of_cover 2 (G4 V c) (fun t _ => flushed4 V c t) fun i => by
    have hi0 : (i 0).val < 102400 := (i 0).isLt
    have hi1 : (i 1).val < 128 := (i 1).isLt
    have hN : cfg4.N = 25 := N_4
    have hlt : (i 0).val / 4096 < cfg4.N := by omega
    obtain ⟨-, -, -, -, e20, e21⟩ := idx4 ⟨(i 0).val / 4096, hlt⟩
    refine ⟨⟨(i 0).val / 4096, hlt⟩, flush4_2 _, ?_⟩
    rw [mem_blk4]
    intro a
    match a with
    | ⟨0, _⟩ =>
      show win4_2.index ⟨(i 0).val / 4096, hlt⟩ (0 : Fin 2) * 4096 ≤ (i 0).val
        ∧ (i 0).val < win4_2.index ⟨(i 0).val / 4096, hlt⟩ (0 : Fin 2) * 4096 + 4096
      rw [e20]; show (i 0).val / 4096 * 4096 ≤ (i 0).val ∧ (i 0).val < (i 0).val / 4096 * 4096 + 4096; omega
    | ⟨1, _⟩ =>
      show win4_2.index ⟨(i 0).val / 4096, hlt⟩ (1 : Fin 2) * 128 ≤ (i 1).val
        ∧ (i 1).val < win4_2.index ⟨(i 0).val / 4096, hlt⟩ (1 : Fin 2) * 128 + 128
      omega

end Cert.KernelIdeal.Hand

end
-- ==== Proof.Chain.lean ====
/-
  The idealized kernel program's result buffer, read back through the whole program.

  After the host operations before the first region (Stage0) the buffers go through five regions and five more stretches
  of host operations. A region leaves every buffer but its result array as it found it, and its result array at the
  region's function of the arrays it found (the dense layer for regions 0, 1 and 3, the bias and rectifier for regions 2
  and 4: the five region modules). A host stretch leaves every buffer it does not write as it found it and each buffer it
  writes at its operations' composed term. Level by level — `Wk` is what the buffers hold at the k-th boundary — each
  buffer that a later step reads is expressed in the argument arrays: the node numbers with self loops, the entries'
  weights and the stacked parameters are carried through unchanged; the features become the input layer, the first
  layer's linear transform, its aggregation, its output, and the same for the second layer; the last host operation lays
  the second layer's output out as `[64, 1600, 128]`. The result buffer ends holding `network` of the arguments.
-/
import proofs.«153210_j18992345383253_1_alg».proof.Proof.Stage0
import proofs.«153210_j18992345383253_1_alg».proof.Proof.Network
import proofs.«153210_j18992345383253_1_alg».proof.Proof.Region0
import proofs.«153210_j18992345383253_1_alg».proof.Proof.Region1
import proofs.«153210_j18992345383253_1_alg».proof.Proof.Region2
import proofs.«153210_j18992345383253_1_alg».proof.Proof.Region3
import proofs.«153210_j18992345383253_1_alg».proof.Proof.Region4

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.DenseLayer Cert.LibRowBias

/-! ## Buffers carried through unchanged -/

/-! Level 4: after region 0, which writes none of these buffers. -/
theorem W4_main_v5 (c : Dev nD) : W4 m ρ c (Proc.devRef .tc main_v5) = srcIdx (m ((c : Thread nD τ).loc main_arg1)) :=
  (W4_of_ne m ρ c main_v5 (by decide)).trans (W3_main_v5 m ρ c)
theorem W4_main_v6 (c : Dev nD) : W4 m ρ c (Proc.devRef .tc main_v6) = dstIdx (m ((c : Thread nD τ).loc main_arg1)) :=
  (W4_of_ne m ρ c main_v6 (by decide)).trans (W3_main_v6 m ρ c)
theorem W4_main_v29 (c : Dev nD) : W4 m ρ c (Proc.devRef .tc main_v29) = edgeNorm (srcIdx (m ((c : Thread nD τ).loc main_arg1))) (dstIdx (m ((c : Thread nD τ).loc main_arg1))) :=
  (W4_of_ne m ρ c main_v29 (by decide)).trans (W3_main_v29 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W4_main_arg6 (c : Dev nD) : W4 m ρ c (Proc.devRef .tc main_arg6) = m ((c : Thread nD τ).loc main_arg6) :=
  (W4_of_ne m ρ c main_arg6 (by decide)).trans (W3_main_arg6 m ρ c)

/-! Level 5: after the host stretch `hostOps1`, which writes none of these buffers. -/
theorem W5_main_v5 (c : Dev nD) : W5 m ρ c (Proc.devRef .tc main_v5) = srcIdx (m ((c : Thread nD τ).loc main_arg1)) := by
  dsimp only [W5, hostOps1]
  after_results
  exact W4_main_v5 m ρ c
theorem W5_main_v6 (c : Dev nD) : W5 m ρ c (Proc.devRef .tc main_v6) = dstIdx (m ((c : Thread nD τ).loc main_arg1)) := by
  dsimp only [W5, hostOps1]
  after_results
  exact W4_main_v6 m ρ c
theorem W5_main_v29 (c : Dev nD) : W5 m ρ c (Proc.devRef .tc main_v29) = edgeNorm (srcIdx (m ((c : Thread nD τ).loc main_arg1))) (dstIdx (m ((c : Thread nD τ).loc main_arg1))) := by
  dsimp only [W5, hostOps1]
  after_results
  exact W4_main_v29 m ρ c
theorem W5_main_arg5 (c : Dev nD) : W5 m ρ c (Proc.devRef .tc main_arg5) = m ((c : Thread nD τ).loc main_arg5) := by
  dsimp only [W5, hostOps1]
  after_results
  exact W4_main_arg5 m ρ c
theorem W5_main_arg6 (c : Dev nD) : W5 m ρ c (Proc.devRef .tc main_arg6) = m ((c : Thread nD τ).loc main_arg6) := by
  dsimp only [W5, hostOps1]
  after_results
  exact W4_main_arg6 m ρ c

/-! Level 6: after region 1, which writes none of these buffers. -/
theorem W6_main_v5 (c : Dev nD) : W6 m ρ c (Proc.devRef .tc main_v5) = srcIdx (m ((c : Thread nD τ).loc main_arg1)) :=
  (W6_of_ne m ρ c main_v5 (by decide)).trans (W5_main_v5 m ρ c)
theorem W6_main_v6 (c : Dev nD) : W6 m ρ c (Proc.devRef .tc main_v6) = dstIdx (m ((c : Thread nD τ).loc main_arg1)) :=
  (W6_of_ne m ρ c main_v6 (by decide)).trans (W5_main_v6 m ρ c)
theorem W6_main_v29 (c : Dev nD) : W6 m ρ c (Proc.devRef .tc main_v29) = edgeNorm (srcIdx (m ((c : Thread nD τ).loc main_arg1))) (dstIdx (m ((c : Thread nD τ).loc main_arg1))) :=
  (W6_of_ne m ρ c main_v29 (by decide)).trans (W5_main_v29 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-! Level 7: after the host stretch `hostOps2`, which writes none of these buffers. -/
theorem W7_main_v5 (c : Dev nD) : W7 m ρ c (Proc.devRef .tc main_v5) = srcIdx (m ((c : Thread nD τ).loc main_arg1)) := by
  dsimp only [W7, hostOps2]
  after_results_simp
  exact W6_main_v5 m ρ c
theorem W7_main_v6 (c : Dev nD) : W7 m ρ c (Proc.devRef .tc main_v6) = dstIdx (m ((c : Thread nD τ).loc main_arg1)) := by
  dsimp only [W7, hostOps2]
  after_results_simp
  exact W6_main_v6 m ρ c
theorem W7_main_v29 (c : Dev nD) : W7 m ρ c (Proc.devRef .tc main_v29) = edgeNorm (srcIdx (m ((c : Thread nD τ).loc main_arg1))) (dstIdx (m ((c : Thread nD τ).loc main_arg1))) := by
  dsimp only [W7, hostOps2]
  after_results_simp
  exact W6_main_v29 m ρ c
theorem W7_main_arg5 (c : Dev nD) : W7 m ρ c (Proc.devRef .tc main_arg5) = m ((c : Thread nD τ).loc main_arg5) := by
  dsimp only [W7, hostOps2]
  after_results_simp
  exact W6_main_arg5 m ρ c
theorem W7_main_arg6 (c : Dev nD) : W7 m ρ c (Proc.devRef .tc main_arg6) = m ((c : Thread nD τ).loc main_arg6) := by
  dsimp only [W7, hostOps2]
  after_results_simp
  exact W6_main_arg6 m ρ c

/-! Level 8: after region 2, which writes none of these buffers. -/
theorem W8_main_v5 (c : Dev nD) : W8 m ρ c (Proc.devRef .tc main_v5) = srcIdx (m ((c : Thread nD τ).loc main_arg1)) :=
  (W8_of_ne m ρ c main_v5 (by decide)).trans (W7_main_v5 m ρ c)
theorem W8_main_v6 (c : Dev nD) : W8 m ρ c (Proc.devRef .tc main_v6) = dstIdx (m ((c : Thread nD τ).loc main_arg1)) :=
  (W8_of_ne m ρ c main_v6 (by decide)).trans (W7_main_v6 m ρ c)
theorem W8_main_v29 (c : Dev nD) : W8 m ρ c (Proc.devRef .tc main_v29) = edgeNorm (srcIdx (m ((c : Thread nD τ).loc main_arg1))) (dstIdx (m ((c : Thread nD τ).loc main_arg1))) :=
  (W8_of_ne m ρ c main_v29 (by decide)).trans (W7_main_v29 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W8_main_arg6 (c : Dev nD) : W8 m ρ c (Proc.devRef .tc main_arg6) = m ((c : Thread nD τ).loc main_arg6) :=
  (W8_of_ne m ρ c main_arg6 (by decide)).trans (W7_main_arg6 m ρ c)

/-! Level 9: after the host stretch `hostOps3`, which writes none of these buffers. -/
theorem W9_main_v5 (c : Dev nD) : W9 m ρ c (Proc.devRef .tc main_v5) = srcIdx (m ((c : Thread nD τ).loc main_arg1)) := by
  dsimp only [W9, hostOps3]
  after_results
  exact W8_main_v5 m ρ c
theorem W9_main_v6 (c : Dev nD) : W9 m ρ c (Proc.devRef .tc main_v6) = dstIdx (m ((c : Thread nD τ).loc main_arg1)) := by
  dsimp only [W9, hostOps3]
  after_results
  exact W8_main_v6 m ρ c
theorem W9_main_v29 (c : Dev nD) : W9 m ρ c (Proc.devRef .tc main_v29) = edgeNorm (srcIdx (m ((c : Thread nD τ).loc main_arg1))) (dstIdx (m ((c : Thread nD τ).loc main_arg1))) := by
  dsimp only [W9, hostOps3]
  after_results
  exact W8_main_v29 m ρ c
theorem W9_main_arg6 (c : Dev nD) : W9 m ρ c (Proc.devRef .tc main_arg6) = m ((c : Thread nD τ).loc main_arg6) := by
  dsimp only [W9, hostOps3]
  after_results
  exact W8_main_arg6 m ρ c

/-! Level 10: after region 3, which writes none of these buffers. -/
theorem W10_main_v5 (c : Dev nD) : W10 m ρ c (Proc.devRef .tc main_v5) = srcIdx (m ((c : Thread nD τ).loc main_arg1)) :=
  (W10_of_ne m ρ c main_v5 (by decide)).trans (W9_main_v5 m ρ c)
theorem W10_main_v6 (c : Dev nD) : W10 m ρ c (Proc.devRef .tc main_v6) = dstIdx (m ((c : Thread nD τ).loc main_arg1)) :=
  (W10_of_ne m ρ c main_v6 (by decide)).trans (W9_main_v6 m ρ c)
theorem W10_main_v29 (c : Dev nD) : W10 m ρ c (Proc.devRef .tc main_v29) = edgeNorm (srcIdx (m ((c : Thread nD τ).loc main_arg1))) (dstIdx (m ((c : Thread nD τ).loc main_arg1))) :=
  (W10_of_ne m ρ c main_v29 (by decide)).trans (W9_main_v29 m ρ c)
theorem W10_main_arg6 (c : Dev nD) : W10 m ρ c (Proc.devRef .tc main_arg6) = m ((c : Thread nD τ).loc main_arg6) :=
  (W10_of_ne m ρ c main_arg6 (by decide)).trans (W9_main_arg6 m ρ c)

/-! ## The features, level by level -/

/-- The arguments, named. -/
abbrev argX (c : Dev nD) : F32 S102400x128 := m ((c : Thread nD τ).loc main_arg0)
abbrev argE (c : Dev nD) : I32 S2x1638400 := m ((c : Thread nD τ).loc main_arg1)
abbrev argWin (c : Dev nD) : F32 S128x128 := m ((c : Thread nD τ).loc main_arg3)
abbrev argBin (c : Dev nD) : F32 S128 := m ((c : Thread nD τ).loc main_arg4)
abbrev argWs (c : Dev nD) : F32 S2x128x128 := m ((c : Thread nD τ).loc main_arg5)
abbrev argBs (c : Dev nD) : F32 S2x128 := m ((c : Thread nD τ).loc main_arg6)

/-- The features after the input layer, and through the two layers. -/
def feat0 (c : Dev nD) : F32 S102400x128 := inputLayer (argX m c) (argWin m c) (argBin m c)
def lin1 (c : Dev nD) : F32 S102400x128 := linear (feat0 m c) (weight0 (argWs m c))
def agg1 (c : Dev nD) : F32 S102400x128 := aggOf (argE m c) (lin1 m c)
def feat1 (c : Dev nD) : F32 S102400x128 := closeLayer (agg1 m c) (bias0 (argBs m c))
def lin2 (c : Dev nD) : F32 S102400x128 := linear (feat1 m c) (weight1 (argWs m c))
def agg2 (c : Dev nD) : F32 S102400x128 := aggOf (argE m c) (lin2 m c)
def feat2 (c : Dev nD) : F32 S102400x128 := closeLayer (agg2 m c) (bias1 (argBs m c))

/-- Region 0 leaves the input layer. -/
theorem W4_main_v31 (c : Dev nD) : W4 m ρ c (Proc.devRef .tc main_v31) = feat0 m c := by
  refine (W4_arr m ρ c 3).trans ((arr0 (V3 m ρ) c).trans ?_)
  show dense (W3 m ρ c (Proc.devRef .tc main_arg0) : S102400x128.Idx → EReal) (W3 m ρ c (Proc.devRef .tc main_arg3) : S128x128.Idx → EReal)
      (rowOf (W3 m ρ c (Proc.devRef .tc main_v30) : S1x128.Idx → EReal)) = _
  rw [W3_main_arg0, W3_main_arg3, W3_main_v30]
  rfl

/-- The stretch before region 1 cuts the first weight matrix out and forms the zero row. -/
theorem W5_main_v31 (c : Dev nD) : W5 m ρ c (Proc.devRef .tc main_v31) = feat0 m c := by
  dsimp only [W5, hostOps1]
  after_results
  exact W4_main_v31 m ρ c
theorem W5_main_v33 (c : Dev nD) : W5 m ρ c (Proc.devRef .tc main_v33) = weight0 (argWs m c) := by
  dsimp only [W5, hostOps1]
  after_results
  rw [W4_main_arg5]
  rfl
theorem W5_main_v34 (c : Dev nD) : W5 m ρ c (Proc.devRef .tc main_v34) = zeroRow := by
  dsimp only [W5, hostOps1]
  after_results
  rfl

/-- Region 1 leaves the first layer's linear transform. -/
theorem W6_main_v35 (c : Dev nD) : W6 m ρ c (Proc.devRef .tc main_v35) = lin1 m c := by
  refine (W6_arr m ρ c 3).trans ((arr1 (V5 m ρ) c).trans ?_)
  show dense (W5 m ρ c (Proc.devRef .tc main_v31) : S102400x128.Idx → EReal) (W5 m ρ c (Proc.devRef .tc main_v33) : S128x128.Idx → EReal)
      (rowOf (W5 m ρ c (Proc.devRef .tc main_v34) : S1x128.Idx → EReal)) = _
  rw [W5_main_v31, W5_main_v33, W5_main_v34]
  rfl

/-- The stretch before region 2 aggregates over the edges and lays the first bias out as a row. -/
theorem W7_main_v48 (c : Dev nD) : W7 m ρ c (Proc.devRef .tc main_v48) = agg1 m c := by
  dsimp only [W7, hostOps2]
  after_results_simp
  rw [W6_main_v35, W6_main_v5, W6_main_v6, W6_main_v29]
  rfl
theorem W7_main_v51 (c : Dev nD) : W7 m ρ c (Proc.devRef .tc main_v51) = asRow (bias0 (argBs m c)) := by
  dsimp only [W7, hostOps2]
  after_results_simp
  rw [W6_main_arg6]
  rfl

/-- Region 2 leaves the first layer's output. -/
theorem W8_main_v52 (c : Dev nD) : W8 m ρ c (Proc.devRef .tc main_v52) = feat1 m c := by
  refine (W8_arr m ρ c 2).trans ((arr2 (V7 m ρ) c).trans ?_)
  show reluB (W7 m ρ c (Proc.devRef .tc main_v48) : S102400x128.Idx → EReal)
      (rowOf (W7 m ρ c (Proc.devRef .tc main_v51) : S1x128.Idx → EReal)) = _
  rw [W7_main_v48, W7_main_v51]
  rfl

/-- The stretch before region 3 cuts the second weight matrix out and forms the zero row. -/
theorem W9_main_v52 (c : Dev nD) : W9 m ρ c (Proc.devRef .tc main_v52) = feat1 m c := by
  dsimp only [W9, hostOps3]
  after_results
  exact W8_main_v52 m ρ c
theorem W9_main_v54 (c : Dev nD) : W9 m ρ c (Proc.devRef .tc main_v54) = weight1 (argWs m c) := by
  dsimp only [W9, hostOps3]
  after_results
  rw [W8_main_arg5]
  rfl
theorem W9_main_v55 (c : Dev nD) : W9 m ρ c (Proc.devRef .tc main_v55) = zeroRow := by
  dsimp only [W9, hostOps3]
  after_results
  rfl

/-- Region 3 leaves the second layer's linear transform. -/
theorem W10_main_v56 (c : Dev nD) : W10 m ρ c (Proc.devRef .tc main_v56) = lin2 m c := by
  refine (W10_arr m ρ c 3).trans ((arr3 (V9 m ρ) c).trans ?_)
  show dense (W9 m ρ c (Proc.devRef .tc main_v52) : S102400x128.Idx → EReal) (W9 m ρ c (Proc.devRef .tc main_v54) : S128x128.Idx → EReal)
      (rowOf (W9 m ρ c (Proc.devRef .tc main_v55) : S1x128.Idx → EReal)) = _
  rw [W9_main_v52, W9_main_v54, W9_main_v55]
  rfl

/-- The stretch before region 4 aggregates over the edges and lays the second bias out as a row. -/
theorem W11_main_v69 (c : Dev nD) : W11 m ρ c (Proc.devRef .tc main_v69) = agg2 m c := by
  dsimp only [W11, hostOps4]
  after_results_simp
  rw [W10_main_v56, W10_main_v5, W10_main_v6, W10_main_v29]
  rfl
theorem W11_main_v72 (c : Dev nD) : W11 m ρ c (Proc.devRef .tc main_v72) = asRow (bias1 (argBs m c)) := by
  dsimp only [W11, hostOps4]
  after_results_simp
  rw [W10_main_arg6]
  rfl

/-- Region 4 leaves the second layer's output. -/
theorem W12_main_v73 (c : Dev nD) : W12 m ρ c (Proc.devRef .tc main_v73) = feat2 m c := by
  refine (W12_arr m ρ c 2).trans ((arr4 (V11 m ρ) c).trans ?_)
  show reluB (W11 m ρ c (Proc.devRef .tc main_v69) : S102400x128.Idx → EReal)
      (rowOf (W11 m ρ c (Proc.devRef .tc main_v72) : S1x128.Idx → EReal)) = _
  rw [W11_main_v69, W11_main_v72]
  rfl

/-- The result buffer ends holding the network of the arguments. -/
theorem W13_main_v74 (c : Dev nD) : W13 m ρ c (Proc.devRef .tc main_v74)
    = network (argX m c) (argE m c) (argWin m c) (argBin m c) (argWs m c) (argBs m c) := by
  dsimp only [W13, hostOps5]
  after_results
  rw [W12_main_v73]
  rfl

end Cert.KernelIdeal.Hand

end
-- ==== Proof.RefValue.lean ====
/-
  The reference program's result is the network of its arguments.

  The reference computes the same network with host operations only. Its run (the reference's operation list read
  back) states the result as one composed term of the argument arrays. That term differs from `network` in the
  spelling of the three dense steps: the input layer is a general dot product plus the bias vector broadcast over the
  rows, a layer's linear transform is the bare general dot product (where the other program adds the zero row, and
  `s + 0 = s` on the extended reals), and a layer's closing step adds the bias vector broadcast over the rows and takes
  the maximum with a zero constant. Each is the corresponding step of `network` as an array (`inputLayer_host`,
  `linear_host`, `closeLayer_host`). The sparse steps — cutting the edge array, the self loops, the degrees, the
  entries' weights, the gather, the scaling and the scatter-add — are the same operations in the same order on both
  sides (the reference recomputes the weights in its second layer; the recomputation is the same term), so after those
  three rewrites the two terms are one.
-/
import proofs.«153210_j18992345383253_1_alg».proof.Proof.RefRun
import proofs.«153210_j18992345383253_1_alg».proof.Proof.Network

set_option maxRecDepth 16384

noncomputable section

namespace Cert.ReferenceIdeal.Hand

open Idealize.ShloMosaic Idealize.ShloMosaic.TcCoe Idealize.SL.Sem
open Cert.KernelIdeal.Hand Cert.DenseLayer Cert.LibRowBias Cert.LayerForms

/-- The input layer as the host program spells it. -/
theorem inputLayer_host (x : F32 Cert.KernelIdeal.S102400x128) (win : F32 Cert.KernelIdeal.S128x128) (bin : F32 Cert.KernelIdeal.S128) :
    inputLayer x win bin
      = addf (Host.dotGeneral Cert.ReferenceIdeal.dot_S102400x128_S128x128_S102400x128_1_0_0_1_n_n none x win)
          (broadcastInDim Cert.ReferenceIdeal.S102400x128 ![0, 1] Cert.ReferenceIdeal.Facts₀.bcast_S1x128_S102400x128_0_1
            (broadcastInDim Cert.ReferenceIdeal.S1x128 ![1] Cert.ReferenceIdeal.Facts₀.bcast_S128_S1x128_1 bin)) := by
  unfold inputLayer asRow
  rw [rowOf_cast]
  exact (host_dense _ rfl none x win bin _ _).symm

/-- A layer's linear transform as the host program spells it. -/
theorem linear_host (h : F32 Cert.KernelIdeal.S102400x128) (w : F32 Cert.KernelIdeal.S128x128) :
    linear h w = Host.dotGeneral Cert.ReferenceIdeal.dot_S102400x128_S128x128_S102400x128_1_0_0_1_n_n none h w := by
  unfold linear zeroRow
  exact dense_zero_row _ rfl none h w _

/-- A layer's closing step as the host program spells it. -/
theorem closeLayer_host (a : F32 Cert.KernelIdeal.S102400x128) (b : F32 Cert.KernelIdeal.S128) :
    closeLayer a b
      = maximumf (addf a (broadcastInDim Cert.ReferenceIdeal.S102400x128 ![0, 1] Cert.ReferenceIdeal.Facts₀.bcast_S1x128_S102400x128_0_1
            (broadcastInDim Cert.ReferenceIdeal.S1x128 ![1] Cert.ReferenceIdeal.Facts₀.bcast_S128_S1x128_1 b)))
          (broadcastInDim Cert.ReferenceIdeal.S102400x128 ![] Cert.ReferenceIdeal.Facts₀.bcast_S_S102400x128
            (constant (F := Ideal) Cert.ReferenceIdeal.S_ .f32 0x00000000#32)) := by
  unfold closeLayer asRow
  rw [rowOf_cast]
  exact (host_reluB a b _ _ _).symm

open Cert.ReferenceIdeal in
/-- The reference run's result term is the network of the argument arrays. -/
theorem result_eq (m : (ℓ : Loc nD τ sig) → Buf (Elt Ideal) ℓ) (c : Dev nD) :
    Cert.ReferenceIdeal.ValueP.res_main_v104 (F := Ideal) m c
      = network (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  unfold network gcnLayer
  rw [closeLayer_host, closeLayer_host, linear_host, linear_host, inputLayer_host]
  unfold aggOf aggregate edgeNorm endsProduct invSqrtDeg keepWhere degree wrapIdx colIdx srcIdx dstIdx withLoops edgeRow0 edgeRow1 weight0 weight1 bias0 bias1
  unfold Cert.ReferenceIdeal.ValueP.res_main_v104
  rfl

end Cert.ReferenceIdeal.Hand

end
-- ==== Proof.lean ====
/-
  A two-layer graph convolutional network on 102400 nodes and 1638400 edges, computed two ways, and the certificate that
  on the extended reals the two computations give the same `[64, 1600, 128]` result.

  The network: the node features go through an input transform `x · W_in + b_in` and then twice through a layer
  `h ↦ max (agg (h · W) + b, 0)`, where `agg` gathers each edge's source row, scales it by the product of the inverse
  square roots of the degrees of its two ends (self loops added, a zero degree giving zero) and scatter-adds it at the
  edge's target. The one program computes the three matrix products and the two closing steps `max (· + b, 0)` in five
  vector-unit regions, each over 25 blocks of 4096 rows, and everything sparse on the host between them; the other
  computes everything on the host.

  The five conjuncts. Each program runs to completion from any memory and leaves its arguments as they were: for the two
  programs with regions by the generated frames, for the host-only program by its run read back. The idealized kernel
  program is the kernel program's own text read on the extended reals (nothing was rewritten). And the two idealized
  programs end with equal results: the kernel program's result buffer is read back through its regions and host stretches
  to `network` of the arguments (Chain: a region's result array is its dense step of the arrays it found, since a
  row of a dense step depends on one row of the operand only and the row blocks tile the array), and the reference's
  composed term is `network` of the arguments as well (RefValue: the three dense steps respelt, `s + 0 = s` for the zero
  bias, the sparse operations identical). No finiteness is used: the two sides are the same sums of the same products, and the one law met, `s + 0 = s`, holds at
  every extended real.
-/
import proofs.«153210_j18992345383253_1_alg».proof.Defs
import proofs.«153210_j18992345383253_1_alg».proof.Proof.Gen.Kernel
import proofs.«153210_j18992345383253_1_alg».proof.Proof.Gen.Kernel.Skeleton
import proofs.«153210_j18992345383253_1_alg».proof.Proof.Gen.Kernel.Launch
import proofs.«153210_j18992345383253_1_alg».proof.Proof.Gen.Kernel.Points
import proofs.«153210_j18992345383253_1_alg».proof.Proof.Gen.Kernel.Frame
import proofs.«153210_j18992345383253_1_alg».proof.Proof.Gen.KernelIdeal
import proofs.«153210_j18992345383253_1_alg».proof.Proof.Gen.KernelIdeal.Skeleton
import proofs.«153210_j18992345383253_1_alg».proof.Proof.Gen.KernelIdeal.Launch
import proofs.«153210_j18992345383253_1_alg».proof.Proof.Gen.KernelIdeal.Points
import proofs.«153210_j18992345383253_1_alg».proof.Proof.Gen.KernelIdeal.Frame
import proofs.«153210_j18992345383253_1_alg».proof.Proof.Gen.ReferenceIdeal
import proofs.«153210_j18992345383253_1_alg».proof.Proof.Gen.Pre_finite_inputs
import proofs.«153210_j18992345383253_1_alg».proof.Proof.KernelRun
import proofs.«153210_j18992345383253_1_alg».proof.Proof.Chain
import proofs.«153210_j18992345383253_1_alg».proof.Proof.RefRun
import proofs.«153210_j18992345383253_1_alg».proof.Proof.RefValue
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with `network` of the arguments in their result buffers. -/
theorem algebraic : Cert.algebraic_KernelIdeal_ReferenceIdeal := by
  intro m ρ m' ρ' _ hagree
  refine ⟨fun c => Cert.KernelIdeal.Hand.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.W13_main_v74 m ρ c), (h c).2⟩)
      (Cert.KernelIdeal.Hand.run_out m ρ)
  · refine (θ_run Cert.ReferenceIdeal.defs _ _).mono (fun _ h c => ⟨(h c).1.trans ?_, (h c).2⟩)
      (Cert.ReferenceIdeal.ValueP.run (F := Ideal) m' ρ')
    obtain ⟨h0, h1, -, h3, h4, h5, h6⟩ := hagree c
    rw [Cert.ReferenceIdeal.Hand.result_eq m' c, h0, h1, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
